-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128x40 .f32) (main_arg6 : FVec F S128x40 .f32) (main_arg7 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg5
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x40 .f32) (main_arg6 : FVec F S128x40 .f32) (main_arg7 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S2000x128 : Shape := ⟨2, ![2000, 128]⟩
abbrev S1x128 : Shape := ⟨2, ![1, 128]⟩
abbrev S50000x40 : Shape := ⟨2, ![50000, 40]⟩
abbrev S2000x40 : Shape := ⟨2, ![2000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 58
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x40, .f32⟩
  | .hbm, ⟨6, _⟩ => ⟨S128x40, .f32⟩
  | .hbm, ⟨7, _⟩ => ⟨S40, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S50000x1, .f32⟩
  | .hbm, ⟨55, _⟩ => ⟨S50000x128, .f32⟩
  | .hbm, ⟨56, _⟩ => ⟨S50000x128, .f32⟩
  | .hbm, ⟨57, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x40, .f32⟩
  | .local _ .vmem, ⟨14, _⟩ => ⟨S128x40, .f32⟩
  | .local _ .vmem, ⟨15, _⟩ => ⟨S40, .f32⟩
  | .local _ .vmem, ⟨16, _⟩ => ⟨S2000x40, .f32⟩
  | .local _ .vmem, ⟨17, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x40_S128x40_0_0 : ∀ a, (![0, 0] : Fin 2 → Nat) a + S128x40.size a ≤ S128x40.size a
  h_S128x40 : 0 < S128x40.numel
  inb_S40_S40_0 : ∀ a, (![0] : Fin 1 → Nat) a + S40.size a ≤ S40.size a
  h_S40 : 0 < S40.numel
  shapeCasts_S40_S1x40 : S40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x40.size a ≤ S128x40.size a
  hwx1_3 : ∀ i : grid1.Coords, EltTy.bits .f32 = 32 ∨ (Rect.block (s := S128x40) S128x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S40.size a ≤ S40.size a
  hwx1_4 : ∀ i : grid1.Coords, EltTy.bits .f32 = 32 ∨ (Rect.block (s := S40) S40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x40.size a ≤ S50000x40.size a
  hwx1_5 : ∀ i : grid1.Coords, EltTy.bits .f32 = 32 ∨ (Rect.block (s := S50000x40) S2000x40.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S2000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x40 : Shape := ⟨2, ![50000, 40]⟩
abbrev S1x40 : Shape := ⟨2, ![1, 40]⟩

abbrev nBuf : Space → Nat
  | .hbm => 119
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x40, .f32⟩
  | .hbm, ⟨6, _⟩ => ⟨S128x40, .f32⟩
  | .hbm, ⟨7, _⟩ => ⟨S40, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .i1⟩
  | .hbm, ⟨46, _⟩ => ⟨S_, .f32⟩
  | .hbm, ⟨47, _⟩ => ⟨S50000x128, .f32⟩
  | .hbm, ⟨48, _⟩ => ⟨S50000x128, .i1⟩
  | .hbm, ⟨49, _⟩ => ⟨S_, .f32⟩
  | .hbm, ⟨50, _⟩ => ⟨S_, .f32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S50000x128, .f32⟩
  | .hbm, ⟨56, _⟩ => ⟨S50000x128, .f32⟩
  | .hbm, ⟨57, _⟩ => ⟨S50000x128, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x128, .f32⟩
  | .hbm, ⟨67, _⟩ => ⟨S_, .f32⟩
  | .hbm, ⟨68, _⟩ => ⟨S50000x128, .f32⟩
  | .hbm, ⟨69, _⟩ => ⟨S800000x1, .i32⟩
  | .hbm, ⟨70, _⟩ => ⟨S50000x128, .f32⟩
  | .hbm, ⟨71, _⟩ => ⟨S_, .f32⟩
  | .hbm, ⟨72, _⟩ => ⟨S800000, .f32⟩
  | .hbm, ⟨73, _⟩ => ⟨S_, .f32⟩
  | .hbm, ⟨74, _⟩ => ⟨S50000, .f32⟩
  | .hbm, ⟨75, _⟩ => ⟨S800000x1, .i32⟩
  | .hbm, ⟨76, _⟩ => ⟨S50000, .f32⟩
  | .hbm, ⟨77, _⟩ => ⟨S_, .f32⟩
  | .hbm, ⟨78, _⟩ => ⟨S50000, .f32⟩
  | .hbm, ⟨79, _⟩ => ⟨S50000, .f32⟩
  | .hbm, ⟨80, _⟩ => ⟨S50000x1, .f32⟩
  | .hbm, ⟨81, _⟩ => ⟨S50000x128, .f32⟩
  | .hbm, ⟨82, _⟩ => ⟨S50000x128, .f32⟩
  | .hbm, ⟨83, _⟩ => ⟨S50000x40, .f32⟩
  | .hbm, ⟨84, _⟩ => ⟨S1x40, .f32⟩
  | .hbm, ⟨85, _⟩ => ⟨S50000x40, .f32⟩
  | .hbm, ⟨86, _⟩ => ⟨S50000x40, .f32⟩
  | .hbm, ⟨87, _⟩ => ⟨S50000x40, .f32⟩
  | .hbm, ⟨88, _⟩ => ⟨S50000x40, .f32⟩
  | .hbm, ⟨89, _⟩ => ⟨S_, .f32⟩
  | .hbm, ⟨90, _⟩ => ⟨S50000x40, .f32⟩
  | .hbm, ⟨91, _⟩ => ⟨S50000x40, .i1⟩
  | .hbm, ⟨92, _⟩ => ⟨S_, .f32⟩
  | .hbm, ⟨93, _⟩ => ⟨S50000x40, .f32⟩
  | .hbm, ⟨94, _⟩ => ⟨S50000x40, .i1⟩
  | .hbm, ⟨95, _⟩ => ⟨S_, .f32⟩
  | .hbm, ⟨96, _⟩ => ⟨S_, .f32⟩
  | .hbm, ⟨97, _⟩ => ⟨S50000x40, .f32⟩
  | .hbm, ⟨98, _⟩ => ⟨S50000x40, .f32⟩
  | .hbm, ⟨99, _⟩ => ⟨S50000x40, .f32⟩
  | .hbm, ⟨100, _⟩ => ⟨S_, .f32⟩
  | .hbm, ⟨101, _⟩ => ⟨S50000x40, .f32⟩
  | .hbm, ⟨102, _⟩ => ⟨S50000x40, .f32⟩
  | .hbm, ⟨103, _⟩ => ⟨S50000x40, .f32⟩
  | .hbm, ⟨104, _⟩ => ⟨S_, .f32⟩
  | .hbm, ⟨105, _⟩ => ⟨S50000, .f32⟩
  | .hbm, ⟨106, _⟩ => ⟨S_, .f32⟩
  | .hbm, ⟨107, _⟩ => ⟨S50000, .f32⟩
  | .hbm, ⟨108, _⟩ => ⟨S50000, .f32⟩
  | .hbm, ⟨109, _⟩ => ⟨S50000x1, .f32⟩
  | .hbm, ⟨110, _⟩ => ⟨S50000x40, .f32⟩
  | .hbm, ⟨111, _⟩ => ⟨S50000x40, .f32⟩
  | .hbm, ⟨112, _⟩ => ⟨S50000x40, .f32⟩
  | .hbm, ⟨113, _⟩ => ⟨S_, .f32⟩
  | .hbm, ⟨114, _⟩ => ⟨S50000, .f32⟩
  | .hbm, ⟨115, _⟩ => ⟨S50000x1, .f32⟩
  | .hbm, ⟨116, _⟩ => ⟨S50000x1, .f32⟩
  | .hbm, ⟨117, _⟩ => ⟨S50000x40, .f32⟩
  | .hbm, ⟨118, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_cst_0 : Ref sig .tc := ⟨.hbm, 46, rfl⟩
abbrev main_call0_v2 : Ref sig .tc := ⟨.hbm, 47, rfl⟩
abbrev main_call0_v3 : Ref sig .tc := ⟨.hbm, 48, rfl⟩
abbrev main_call0_cst_1 : Ref sig .tc := ⟨.hbm, 49, rfl⟩
abbrev main_call0_call0_v0 : Ref sig .tc := ⟨.hbm, 50, rfl⟩
abbrev main_call0_call0_v1 : Ref sig .tc := ⟨.hbm, 51, rfl⟩
abbrev main_call0_v4 : Ref sig .tc := ⟨.hbm, 52, rfl⟩
abbrev main_call0_v5 : Ref sig .tc := ⟨.hbm, 53, rfl⟩
abbrev main_call0_cst_2 : Ref sig .tc := ⟨.hbm, 54, rfl⟩
abbrev main_call0_v6 : Ref sig .tc := ⟨.hbm, 55, rfl⟩
abbrev main_call0_v7 : Ref sig .tc := ⟨.hbm, 56, rfl⟩
abbrev main_v29 : Ref sig .tc := ⟨.hbm, 57, rfl⟩
abbrev main_c_4 : Ref sig .tc := ⟨.hbm, 58, rfl⟩
abbrev main_v30 : Ref sig .tc := ⟨.hbm, 59, rfl⟩
abbrev main_v31 : Ref sig .tc := ⟨.hbm, 60, rfl⟩
abbrev main_c_5 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_6 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_7 : Ref sig .tc := ⟨.hbm, 71, rfl⟩
abbrev main_v40 : Ref sig .tc := ⟨.hbm, 72, rfl⟩
abbrev main_cst_8 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_9 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_call1_cst : Ref sig .tc := ⟨.hbm, 89, rfl⟩
abbrev main_call1_v0 : Ref sig .tc := ⟨.hbm, 90, rfl⟩
abbrev main_call1_v1 : Ref sig .tc := ⟨.hbm, 91, rfl⟩
abbrev main_call1_cst_0 : Ref sig .tc := ⟨.hbm, 92, rfl⟩
abbrev main_call1_v2 : Ref sig .tc := ⟨.hbm, 93, rfl⟩
abbrev main_call1_v3 : Ref sig .tc := ⟨.hbm, 94, rfl⟩
abbrev main_call1_cst_1 : Ref sig .tc := ⟨.hbm, 95, rfl⟩
abbrev main_call1_call0_v0 : Ref sig .tc := ⟨.hbm, 96, rfl⟩
abbrev main_call1_call0_v1 : Ref sig .tc := ⟨.hbm, 97, rfl⟩
abbrev main_call1_v4 : Ref sig .tc := ⟨.hbm, 98, rfl⟩
abbrev main_call1_v5 : Ref sig .tc := ⟨.hbm, 99, rfl⟩
abbrev main_call1_cst_2 : Ref sig .tc := ⟨.hbm, 100, rfl⟩
abbrev main_call1_v6 : Ref sig .tc := ⟨.hbm, 101, rfl⟩
abbrev main_call1_v7 : Ref sig .tc := ⟨.hbm, 102, rfl⟩
abbrev main_v55 : Ref sig .tc := ⟨.hbm, 103, rfl⟩
abbrev main_call2_cst : Ref sig .tc := ⟨.hbm, 104, rfl⟩
abbrev main_call2_v0 : Ref sig .tc := ⟨.hbm, 105, rfl⟩
abbrev main_call2_cst_0 : Ref sig .tc := ⟨.hbm, 106, rfl⟩
abbrev main_call2_v1 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_v5 : Ref sig .tc := ⟨.hbm, 111, rfl⟩
abbrev main_call2_v6 : Ref sig .tc := ⟨.hbm, 112, rfl⟩
abbrev main_call2_cst_1 : Ref sig .tc := ⟨.hbm, 113, rfl⟩
abbrev main_call2_v7 : Ref sig .tc := ⟨.hbm, 114, rfl⟩
abbrev main_call2_v8 : Ref sig .tc := ⟨.hbm, 115, rfl⟩
abbrev main_call2_v9 : Ref sig .tc := ⟨.hbm, 116, rfl⟩
abbrev main_call2_v10 : Ref sig .tc := ⟨.hbm, 117, rfl⟩
abbrev main_v56 : Ref sig .tc := ⟨.hbm, 118, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  bcast_S_S50000x40 : S_.BroadcastsInDim S50000x40 (![] : Fin 0 → Fin S50000x40.rank)
  reducesTo_S50000x40_S50000_d1 : S50000x40.ReducesTo [1] S50000
  h_S_ : 0 < S_.numel
  bcast_S50000x1_S50000x40_0_1 : S50000x1.BroadcastsInDim S50000x40 (![0, 1] : Fin 2 → Fin S50000x40.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibGraphConv.lean ====
/-
  A graph-convolution layer and a clipped linear head, on the extended reals.

  A matrix is a function of a rank-2 index. The CONVOLUTION layer of node features x, aggregated neighbour features a,
  a root weight wr, a neighbour weight wn and a 1×N bias row b has entry (p, c) equal to
      (Σ_q x[p,q] · wr[q,c]  +  Σ_q a[p,q] · wn[q,c])  +  b[0,c],
  and the HEAD of features x, a weight w, a bias row b and two bounds has entry (p, c) equal to
      min hi (max lo (Σ_q x[p,q] · w[q,c] + b[0,c])).
  Three kinds of facts, for any extents, no program needed:

  * entry (p, c) depends on row p of the feature operands only (`conv_at`, `head_at`), which is what lets a block
    computed from a tile of rows be read as a block of the layer of the whole arrays;
  * two products into zero accumulators added, plus the bias row repeated down the rows, is the convolution layer as a
    whole array, both in the vector unit's spelling (`conv_unit`) and in the host's (`conv_host`); likewise the head
    (`head_unit`, `head_host`), for dimension numbers contracting the left operand's second axis against the right
    operand's first;
  * a length-A vector laid out as a 1×A row by a reshape or by a broadcast along axis 1 is the same row, for every A,
    A = 1 included (`reshape_row`, `bcast_row`).
-/
import Idealize.ShloMosaic.PureOps.Ideal.Laws
import Idealize.ShloMosaic.Lib.ValueIdx
import Idealize.ShloMosaic.Lib.ValueLayout
import Idealize.ShloMosaic.Lib.Pipeline.Value
import proofs.«114628_j37194416783909_1_alg».proof.Proof.LibPlainDot

noncomputable section

open scoped BigOperators

namespace Cert.GraphConv

open Idealize.ShloMosaic Idealize.ShloMosaic.ValueIdx

/-- An A×B matrix of extended reals. -/
abbrev Mat (A B : Nat) : Type := (⟨2, ![A, B]⟩ : Shape).Idx → EReal
/-- A length-A vector of extended reals. -/
abbrev Vect (A : Nat) : Type := (⟨1, ![A]⟩ : Shape).Idx → EReal

/-! ## A vector as a row -/

/-- A vector laid out as a 1×A row. -/
def row {α : Type} {A : Nat} (v : (⟨1, ![A]⟩ : Shape).Idx → α) : (⟨2, ![1, A]⟩ : Shape).Idx → α := fun i => v (ix1 (i 1))

theorem row_apply {α : Type} {A : Nat} (v : (⟨1, ![A]⟩ : Shape).Idx → α) (u : Fin 1) (c : Fin A) : row v (ix2 u c) = v (ix1 c) := rfl

/-- A vector reshaped to a 1×A row is that row. -/
theorem reshape_row {α : Type} {A : Nat} (v : (⟨1, ![A]⟩ : Shape).Idx → α) (h : (⟨1, ![A]⟩ : Shape).ShapeCasts ⟨2, ![1, A]⟩) :
    shapeCast ⟨2, ![1, A]⟩ v h = row v := by
  funext i
  obtain ⟨u, q, rfl⟩ : ∃ (u : Fin 1) (q : Fin A), i = ix2 u q := ⟨i 0, i 1, eq_ix2 i⟩
  rw [shapeCast_a_1a_apply, row_apply]

/-- A vector broadcast to a 1×A row along axis 1 is that row (a unit extent is read at coordinate zero, which is
    the only coordinate it has). -/
theorem bcast_row {α : Type} {A : Nat} (v : (⟨1, ![A]⟩ : Shape).Idx → α)
    (h : (⟨1, ![A]⟩ : Shape).BroadcastsInDim ⟨2, ![1, A]⟩ ![1]) :
    broadcastInDim ⟨2, ![1, A]⟩ ![1] h v = row v := by
  funext i
  obtain ⟨u, q, rfl⟩ : ∃ (u : Fin 1) (q : Fin A), i = ix2 u q := ⟨i 0, i 1, eq_ix2 i⟩
  rw [row_apply]
  exact broadcastInDim_apply ![1] h v (ix2 u q) (ix1 q) (fun a => by
    match a with
    | ⟨0, _⟩ =>
      show q.val = if A = 1 then 0 else q.val
      split
      · have := q.isLt; omega
      · rfl)

/-- A 1×N row repeated down M rows by a broadcast along axes (0, 1), at entry (p, c). -/
theorem rows_apply {α : Type} {M N : Nat} (b : (⟨2, ![1, N]⟩ : Shape).Idx → α)
    (h : (⟨2, ![1, N]⟩ : Shape).BroadcastsInDim ⟨2, ![M, N]⟩ ![0, 1]) (p : Fin M) (c : Fin N) :
    broadcastInDim ⟨2, ![M, N]⟩ ![0, 1] h b (ix2 p c) = b (ix2 (0 : Fin 1) c) :=
  broadcastInDim_apply ![0, 1] h b (ix2 p c) (ix2 (0 : Fin 1) c) (fun a => by
    match a with
    | ⟨0, _⟩ =>
      show (0 : ℕ) = if (1 : ℕ) = 1 then 0 else p.val
      rw [if_pos rfl]
    | ⟨1, _⟩ =>
      show c.val = if N = 1 then 0 else c.val
      split
      · have := c.isLt; omega
      · rfl)

/-- A rank-0 value broadcast over a shape, at any entry. -/
theorem splat_apply {α : Type} {s : Shape} (x : (⟨0, ![]⟩ : Shape).Idx → α)
    (h : (⟨0, ![]⟩ : Shape).BroadcastsInDim s ![]) (i : s.Idx) :
    broadcastInDim s ![] h x i = x ix0 :=
  broadcastInDim_apply (s := ⟨0, ![]⟩) ![] h x i ix0 (fun a => a.elim0)

/-! ## The layers -/

/-- x · wr + a · wn + b, the bias a 1×N row repeated down the rows. -/
def conv {M K N : Nat} (x a : Mat M K) (wr wn : Mat K N) (b : Mat 1 N) : Mat M N :=
  fun j => (∑ q : Fin K, x (ix2 (j 0) q) * wr (ix2 q (j 1)) + ∑ q : Fin K, a (ix2 (j 0) q) * wn (ix2 q (j 1)))
    + b (ix2 (0 : Fin 1) (j 1))

theorem conv_apply {M K N : Nat} (x a : Mat M K) (wr wn : Mat K N) (b : Mat 1 N) (p : Fin M) (c : Fin N) :
    conv x a wr wn b (ix2 p c)
      = (∑ q : Fin K, x (ix2 p q) * wr (ix2 q c) + ∑ q : Fin K, a (ix2 p q) * wn (ix2 q c)) + b (ix2 (0 : Fin 1) c) := rfl

/-- min hi (max lo (x · w + b)). -/
def head {M K N : Nat} (lo hi : EReal) (x : Mat M K) (w : Mat K N) (b : Mat 1 N) : Mat M N :=
  fun j => min hi (max lo (∑ q : Fin K, x (ix2 (j 0) q) * w (ix2 q (j 1)) + b (ix2 (0 : Fin 1) (j 1))))

theorem head_apply {M K N : Nat} (lo hi : EReal) (x : Mat M K) (w : Mat K N) (b : Mat 1 N) (p : Fin M) (c : Fin N) :
    head lo hi x w b (ix2 p c) = min hi (max lo (∑ q : Fin K, x (ix2 p q) * w (ix2 q c) + b (ix2 (0 : Fin 1) c))) := rfl

/-! ## An entry depends on one row of the features -/

/-- Entry j of the layer of a tile is entry i of the layer of the whole arrays when j and i name the same column
    and row (j 0) of the tile's features is row (i 0) of the whole features. -/
theorem conv_at {M M' K N : Nat} (x a : Mat M K) (x' a' : Mat M' K) (wr wn : Mat K N) (b : Mat 1 N)
    (j : (⟨2, ![M, N]⟩ : Shape).Idx) (i : (⟨2, ![M', N]⟩ : Shape).Idx) (hc : j 1 = i 1)
    (hx : ∀ q : Fin K, x (ix2 (j 0) q) = x' (ix2 (i 0) q)) (ha : ∀ q : Fin K, a (ix2 (j 0) q) = a' (ix2 (i 0) q)) :
    conv x a wr wn b j = conv x' a' wr wn b i := by
  unfold conv
  rw [hc]
  simp only [hx, ha]

theorem head_at {M M' K N : Nat} (lo hi : EReal) (x : Mat M K) (x' : Mat M' K) (w : Mat K N) (b : Mat 1 N)
    (j : (⟨2, ![M, N]⟩ : Shape).Idx) (i : (⟨2, ![M', N]⟩ : Shape).Idx) (hc : j 1 = i 1)
    (hx : ∀ q : Fin K, x (ix2 (j 0) q) = x' (ix2 (i 0) q)) :
    head lo hi x w b j = head lo hi x' w b i := by
  unfold head
  rw [hc]
  simp only [hx]

/-! ## The layers as the vector unit and the host compute them -/

section Spellings
variable {M K N : Nat} {d : DotDims ⟨2, ![M, K]⟩ ⟨2, ![K, N]⟩ ⟨2, ![M, N]⟩}

/-- Two products into zero accumulators, added, plus the bias row broadcast down the rows: the convolution layer. -/
theorem conv_unit (hd : Cert.PlainDot.IsPlain d) (prec : Option ContractPrecision) {φ₁ φ₂ : FTy}
    (x a : FVec Ideal ⟨2, ![M, K]⟩ φ₁) (wr wn : FVec Ideal ⟨2, ![K, N]⟩ φ₂) (b : FVec Ideal ⟨2, ![1, N]⟩ .f32)
    (hb : (⟨2, ![1, N]⟩ : Shape).Broadcasts ⟨2, ![M, N]⟩) :
    addf (addf (matmul d prec x wr (constant ⟨2, ![M, N]⟩ .f32 0x00000000#32))
          (matmul d prec a wn (constant ⟨2, ![M, N]⟩ .f32 0x00000000#32))) (broadcastTo ⟨2, ![M, N]⟩ b hb)
      = conv x a wr wn b := by
  funext j
  obtain ⟨p, c, rfl⟩ : ∃ (p : Fin M) (c : Fin N), j = ix2 p c := ⟨j 0, j 1, eq_ix2 j⟩
  rw [addf_apply, addf_apply, Cert.PlainDot.matmul_zero_apply hd, Cert.PlainDot.matmul_zero_apply hd,
    broadcastTo_1b_ab_apply, conv_apply]

/-- The host's two products added, plus the bias row repeated down the rows: the convolution layer. -/
theorem conv_host (hd : Cert.PlainDot.IsPlain d) (prec : Option ContractPrecision) {φ₁ φ₂ : FTy}
    (x a : FVec Ideal ⟨2, ![M, K]⟩ φ₁) (wr wn : FVec Ideal ⟨2, ![K, N]⟩ φ₂) (b : FVec Ideal ⟨2, ![1, N]⟩ .f32)
    (h2 : (⟨2, ![1, N]⟩ : Shape).BroadcastsInDim ⟨2, ![M, N]⟩ ![0, 1]) :
    addf (addf (Host.dotGeneral d prec x wr) (Host.dotGeneral d prec a wn)) (broadcastInDim ⟨2, ![M, N]⟩ ![0, 1] h2 b)
      = conv x a wr wn b := by
  funext j
  obtain ⟨p, c, rfl⟩ : ∃ (p : Fin M) (c : Fin N), j = ix2 p c := ⟨j 0, j 1, eq_ix2 j⟩
  rw [addf_apply, addf_apply, Cert.PlainDot.dotGeneral_apply hd, Cert.PlainDot.dotGeneral_apply hd, rows_apply, conv_apply]

/-- A product into a zero accumulator plus the bias row, clamped between two splat words: the head. -/
theorem head_unit (hd : Cert.PlainDot.IsPlain d) (prec : Option ContractPrecision) {φ₁ φ₂ : FTy} (lo hi : BitVec 32)
    (x : FVec Ideal ⟨2, ![M, K]⟩ φ₁) (w : FVec Ideal ⟨2, ![K, N]⟩ φ₂) (b : FVec Ideal ⟨2, ![1, N]⟩ .f32)
    (hb : (⟨2, ![1, N]⟩ : Shape).Broadcasts ⟨2, ![M, N]⟩) :
    minimumf (broadcast ⟨2, ![M, N]⟩ (Scalar.ofBits (F := Ideal) .f32 hi))
        (maximumf (broadcast ⟨2, ![M, N]⟩ (Scalar.ofBits (F := Ideal) .f32 lo))
          (addf (matmul d prec x w (constant ⟨2, ![M, N]⟩ .f32 0x00000000#32)) (broadcastTo ⟨2, ![M, N]⟩ b hb)))
      = head (Ideal.ofBits .f32 lo) (Ideal.ofBits .f32 hi) x w b := by
  funext j
  obtain ⟨p, c, rfl⟩ : ∃ (p : Fin M) (c : Fin N), j = ix2 p c := ⟨j 0, j 1, eq_ix2 j⟩
  rw [minimumf_apply, maximumf_apply, addf_apply, Cert.PlainDot.matmul_zero_apply hd, broadcastTo_1b_ab_apply, head_apply]
  rfl

/-- The host's product plus the bias row, clamped between two rank-0 words broadcast over the shape: the head. -/
theorem head_host (hd : Cert.PlainDot.IsPlain d) (prec : Option ContractPrecision) {φ₁ φ₂ : FTy} (lo hi : BitVec 32)
    (x : FVec Ideal ⟨2, ![M, K]⟩ φ₁) (w : FVec Ideal ⟨2, ![K, N]⟩ φ₂) (b : FVec Ideal ⟨2, ![1, N]⟩ .f32)
    (h2 : (⟨2, ![1, N]⟩ : Shape).BroadcastsInDim ⟨2, ![M, N]⟩ ![0, 1])
    (h0 : (⟨0, ![]⟩ : Shape).BroadcastsInDim ⟨2, ![M, N]⟩ ![]) :
    minimumf (broadcastInDim ⟨2, ![M, N]⟩ ![] h0 (constant (F := Ideal) ⟨0, ![]⟩ .f32 hi))
        (maximumf (broadcastInDim ⟨2, ![M, N]⟩ ![] h0 (constant (F := Ideal) ⟨0, ![]⟩ .f32 lo))
          (addf (Host.dotGeneral d prec x w) (broadcastInDim ⟨2, ![M, N]⟩ ![0, 1] h2 b)))
      = head (Ideal.ofBits .f32 lo) (Ideal.ofBits .f32 hi) x w b := by
  funext j
  obtain ⟨p, c, rfl⟩ : ∃ (p : Fin M) (c : Fin N), j = ix2 p c := ⟨j 0, j 1, eq_ix2 j⟩
  rw [minimumf_apply, maximumf_apply, addf_apply, Cert.PlainDot.dotGeneral_apply hd, rows_apply, splat_apply, splat_apply,
    head_apply]
  rfl

end Spellings

end Cert.GraphConv

end
-- ==== Proof.LibElu.lean ====
/-
  Two spellings of ELU, on the extended reals.

  jax's `elu` is `select (x > 0) x (1 · expm1 (select (x > 0) 0 x))`: the inner select keeps the exponential's
  argument non-positive.  A kernel writes `select (x > 0) x (exp x − 1)`.  On the extended reals `expm1 y` IS
  `exp y − 1`, and where `x > 0` fails the inner select returns `x`, so the two agree at every entry, the
  infinities included: no law is used beyond `1 · y = y`.
-/
import Idealize.ShloMosaic.PureOps.Ideal.Laws
import Idealize.ShloMosaic.Lib.IdealHost

noncomputable section

namespace Cert.Elu

open Idealize.ShloMosaic

/-- The kernel's spelling on one value. -/
def eluS (u : Ideal .f32) : Ideal .f32 :=
  Scalar.select (FloatOps.cmpf .ogt u (Scalar.ofBits .f32 0x00000000#32)) u
    (FloatOps.subf (FloatOps.exp u) (Scalar.ofBits .f32 0x3F800000#32))

/-- jax's spelling on one value, the three constants being the float zero, zero and one. -/
def eluHostS (u : Ideal .f32) : Ideal .f32 :=
  Scalar.select (FloatOps.cmpf .ogt u (FloatOps.ofBits .f32 0x00000000#32)) u
    (FloatOps.mulf (FloatOps.ofBits .f32 0x3F800000#32)
      (FloatOps.hostUnary .expm1 (Scalar.select (FloatOps.cmpf .ogt u (FloatOps.ofBits .f32 0x00000000#32)) (FloatOps.ofBits .f32 0x00000000#32) u)))

/-- The two spellings agree on every extended real. -/
theorem eluHostS_eq (u : Ideal .f32) : eluHostS u = eluS u := by
  unfold eluHostS eluS Scalar.select
  by_cases hc : FloatOps.cmpf (F := Ideal) .ogt u (FloatOps.ofBits .f32 0x00000000#32) = 1
  · have hc' : FloatOps.cmpf (F := Ideal) .ogt u (Scalar.ofBits .f32 0x00000000#32) = 1 := hc
    rw [if_pos hc, if_pos hc']
  · have hc' : ¬ FloatOps.cmpf (F := Ideal) .ogt u (Scalar.ofBits .f32 0x00000000#32) = 1 := hc
    rw [if_neg hc, if_neg hc', if_neg hc]
    show Ideal.ofBits .f32 0x3F800000#32 * (Ideal.exp u - 1) = Ideal.exp u - Ideal.ofBits .f32 0x3F800000#32
    rw [Ideal.ofBits_one_f32, one_mul]

end Cert.Elu

end
-- ==== Proof.LibAxisFold.lean ====
/-
  The maximum down a column, the maximum along a row and the sum along a row of a matrix, each read at one
  index.

  An [a, b] array of extended reals reduced by `max` along axis 0 (down its rows), from the value a starting
  word denotes, holds at column l the fold of `max` from that value over the entries (k, l), k < a; reduced
  along axis 1 it holds at row p the fold over the entries (p, k), k < b; and reduced by addition along axis 1
  from a zero starting value it holds at row p the finite sum of the entries (p, k). (The sum down a column is
  the companion file's.) Stated with the operation's own proof arguments as variables, so that a printed
  reduction meets each lemma in term mode whatever proofs it carries. Depends on no program.
-/
import Idealize.ShloMosaic.Lib.ValueIdx
import Idealize.ShloMosaic.PureOps.Ideal.Laws

noncomputable section

namespace Cert.AxisFold

open Idealize.ShloMosaic Idealize.ShloMosaic.ValueIdx

/-- The maximum of column `l` of an [a, b] array over its `a` rows, folded from the value of the word `acc`. -/
theorem column_max {a b : ℕ} (v : FVec Ideal ⟨2, ![a, b]⟩ .f32) (acc : BitVec (FTy.f32).bits)
    (h : (⟨2, ![a, b]⟩ : Shape).Reduces [0] ⟨1, ![b]⟩)
    (hφ : FKind.Formats .f32) (hacc : acc = FKind.maximumf.neutral .f32 hφ) (l : Fin b) :
    multiReduction .maximumf [0] ⟨1, ![b]⟩ v acc h hφ hacc (ix1 l)
      = (Finset.univ : Finset (Fin a)).fold max (Ideal.ofBits .f32 acc) fun k => v (ix2 k l) :=
  (Ideal.multiReduction_maximumf_single v acc h hφ hacc (ix1 l)).trans
    (congrArg (fun f => Finset.fold max (Ideal.ofBits .f32 acc) f (Finset.univ : Finset (Fin a)))
      (funext fun k => congrArg v (funext fun c => Fin.ext (by
        match c with
        | ⟨0, _⟩ => rfl
        | ⟨1, _⟩ => rfl))))

/-- The maximum of row `p` of an [a, b] array over its `b` columns, folded from the value of the word `acc`. -/
theorem row_max {a b : ℕ} (v : FVec Ideal ⟨2, ![a, b]⟩ .f32) (acc : BitVec (FTy.f32).bits)
    (h : (⟨2, ![a, b]⟩ : Shape).Reduces [1] ⟨1, ![a]⟩)
    (hφ : FKind.Formats .f32) (hacc : acc = FKind.maximumf.neutral .f32 hφ) (p : Fin a) :
    multiReduction .maximumf [1] ⟨1, ![a]⟩ v acc h hφ hacc (ix1 p)
      = (Finset.univ : Finset (Fin b)).fold max (Ideal.ofBits .f32 acc) fun k => v (ix2 p k) :=
  (Ideal.multiReduction_maximumf_single v acc h hφ hacc (ix1 p)).trans
    (congrArg (fun f => Finset.fold max (Ideal.ofBits .f32 acc) f (Finset.univ : Finset (Fin b)))
      (funext fun k => congrArg v (funext fun c => Fin.ext (by
        match c with
        | ⟨0, _⟩ => rfl
        | ⟨1, _⟩ => rfl))))

/-- The sum of row `p` of an [a, b] array over its `b` columns, from a zero initial value. -/
theorem row_sum {a b : ℕ} (v : FVec Ideal ⟨2, ![a, b]⟩ .f32) (h : (⟨2, ![a, b]⟩ : Shape).Reduces [1] ⟨1, ![a]⟩)
    (hφ : FKind.Formats .f32) (hacc : (0x00000000#32 : BitVec (FTy.f32).bits) = FKind.add.neutral .f32 hφ) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (funext fun c => Fin.ext (by
      match c with
      | ⟨0, _⟩ => rfl
      | ⟨1, _⟩ => rfl)))

end Cert.AxisFold

end
-- ==== Proof.LibHostRowFold.lean ====
/-
  The host's reductions along the second axis of a matrix, each read at one row, on the extended reals.

  A `stablehlo.reduce` of an [a, b] array across dimension 1 with a maximum body holds at row p the fold
  of `max` from the initial value over the entries (p, k), k < b; with an add body (the host's float sum)
  it holds the initial value plus the finite sum of the entries (p, k). These are the host-side companions
  of the vector unit's row maximum and row sum. Any extents; depends on no program.
-/
import Idealize.ShloMosaic.Lib.ValueIdx
import Idealize.ShloMosaic.PureOps.Ideal.Laws

noncomputable section

open scoped BigOperators

namespace Cert.HostRowFold

open Idealize.ShloMosaic Idealize.ShloMosaic.ValueIdx

/-- Dropping axis 1 of a rank-2 shape leaves a rank-1 shape, so the host's shape fact is also the vector
    unit's (which asks in addition that a result axis is left). -/
theorem reduces_of_to {a b : ℕ} (h' : (⟨2, ![a, b]⟩ : Shape).ReducesTo [1] ⟨1, ![a]⟩) :
    (⟨2, ![a, b]⟩ : Shape).Reduces [1] ⟨1, ![a]⟩ :=
  let ⟨e, hb⟩ := h'; ⟨e, Nat.one_pos, hb⟩

/-- The host's maximum along row `p`: the fold of `max` from the initial value over the row's entries. -/
theorem row_max {a b : ℕ} (x : FVec Ideal ⟨2, ![a, b]⟩ .f32) (init : FVec Ideal ⟨0, ![]⟩ .f32)
    (h' : (⟨2, ![a, b]⟩ : Shape).ReducesTo [1] ⟨1, ![a]⟩) (hu : 0 < (⟨0, ![]⟩ : Shape).numel) (p : Fin a) :
    Host.reduce FloatOps.maximumf x init h' hu (ix1 p)
      = (Finset.univ : Finset (Fin b)).fold max (init ix0) fun k => x (ix2 p k) := by
  rw [Host.reduce_eq_fold_single FloatOps.maximumf x init h' (reduces_of_to h') hu, eq_ix0 (Shape.Idx.first hu)]
  exact congrArg (fun f => Finset.fold max (init ix0) f (Finset.univ : Finset (Fin b)))
    (funext fun k => congrArg x (funext fun c => Fin.ext (by
      match c with
      | ⟨0, _⟩ => rfl
      | ⟨1, _⟩ => rfl)))

/-- The host's float sum along row `p`: the initial value plus the finite sum of the row's entries. -/
theorem row_sum {a b : ℕ} (x : FVec Ideal ⟨2, ![a, b]⟩ .f32) (init : FVec Ideal ⟨0, ![]⟩ .f32)
    (h' : (⟨2, ![a, b]⟩ : Shape).ReducesTo [1] ⟨1, ![a]⟩) (hu : 0 < (⟨0, ![]⟩ : Shape).numel) (p : Fin a) :
    Host.reduceAdd x init h' hu (ix1 p) = init ix0 + ∑ k : Fin b, x (ix2 p k) := by
  simp only [Host.reduceAdd, Ideal.hostReduceAdd_def]
  rw [Ideal.hostReduceAdd_single h' (reduces_of_to h'), eq_ix0 (Shape.Idx.first hu)]
  refine congrArg (init ix0 + ·) (Finset.sum_congr rfl fun k _ => ?_)
  exact congrArg x (funext fun c => Fin.ext (by
    match c with
    | ⟨0, _⟩ => rfl
    | ⟨1, _⟩ => rfl))

/-- From a zero initial value the host's float sum along row `p` is the finite sum of the row's entries. -/
theorem row_sum_zero {a b : ℕ} (x : FVec Ideal ⟨2, ![a, b]⟩ .f32)
    (h' : (⟨2, ![a, b]⟩ : Shape).ReducesTo [1] ⟨1, ![a]⟩) (hu : 0 < (⟨0, ![]⟩ : Shape).numel) (p : Fin a) :
    Host.reduceAdd x (constant (F := Ideal) ⟨0, ![]⟩ .f32 0x00000000#32) h' hu (ix1 p) = ∑ k : Fin b, x (ix2 p k) :=
  (row_sum x _ h' hu p).trans (by rw [constant_apply, Ideal.ofBits_zero_f32, zero_add])

end Cert.HostRowFold

end
-- ==== Proof.LibRowBias.lean ====
/-
  A bias row read at an index: a vector of length `C`, viewed as a `1×C` matrix and repeated down `R`
  rows, holds the vector's entry `c` at every position `(p, c)`.
-/
import Idealize.ShloMosaic.Lib.Pipeline.Value
import Idealize.ShloMosaic.Lib.ValueLayout
import Idealize.ShloMosaic.Lib.ValueIdx

noncomputable section

namespace Cert.RowBias

open Idealize.ShloMosaic Idealize.ShloMosaic.ValueIdx

/-- Entry `(p, c)` of a length-`C` vector reshaped to `1×C` and broadcast to `R×C` is the vector's entry `c`
    (for `C ≠ 1`: an axis of extent one would be read at coordinate zero, which is the same entry, but the
    broadcast rule branches on it). -/
theorem bias_rows {α : Type} {R C : Nat} (hC : C ≠ 1) (v : (⟨1, ![C]⟩ : Shape).Idx → α)
    (hs : (⟨1, ![C]⟩ : Shape).ShapeCasts ⟨2, ![1, C]⟩) (hb : (⟨2, ![1, C]⟩ : Shape).Broadcasts ⟨2, ![R, C]⟩)
    (p : Fin R) (c : Fin C) :
    broadcastTo ⟨2, ![R, C]⟩ (shapeCast ⟨2, ![1, C]⟩ v hs) hb (ix2 p c) = v (ix1 c) := by
  rw [broadcastTo_apply _ hb (ix2 p c) (ix2 (0 : Fin 1) c) (fun a => by
    match a with
    | ⟨0, _⟩ => show (0 : ℕ) = if (1 : ℕ) = 1 then 0 else _; rw [if_pos rfl]
    | ⟨1, _⟩ => show c.val = if C = 1 then 0 else c.val; rw [if_neg hC])]
  exact shapeCast_a_1a_apply v hs 0 c

end Cert.RowBias

end
-- ==== Proof.LibBroadcast.lean ====
/-
  BROADCASTS BY DIMENSION MAP, READ AT ONE ENTRY (general lemmas: any extents, any element type).

  * a vector `[E]` broadcast to the column `[E, 1]` along axis 0: the entry at `(e, 0)` is the vector's entry `e`;
  * a column `[N, 1]` broadcast to `[N, C]` along axes (0, 1): the entry at `(n, c)` is the column's entry at row `n`;
  * a vector `[C]` broadcast to the row `[1, C]` along axis 1 and then down `N` rows: the entry at `(n, c)` is the
    vector's entry `c`;
  * a rank-0 value broadcast over any shape: every entry is that value.
  (An operand axis of extent one is read at coordinate zero, so the extents that are not unit axes are assumed `≠ 1`.)
-/
import Idealize.ShloMosaic.Lib.Pipeline.Value
import Idealize.ShloMosaic.Lib.ValueIdx

noncomputable section

namespace Cert.Bcast

open Idealize.ShloMosaic Idealize.ShloMosaic.ValueIdx

/-- A vector as a column. -/
theorem col_apply {α : Type} {E : Nat} (hE : E ≠ 1) (x : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h x (ix2 e u) = x (ix1 e) :=
  broadcastInDim_apply ![0] h x (ix2 e u) (ix1 e) (fun a => by
    match a with
    | ⟨0, _⟩ =>
      show e.val = if E = 1 then 0 else e.val
      rw [if_neg hE])

/-- A column repeated across `C` columns. -/
theorem rows_of_col_apply {α : Type} {N C : Nat} (hN : N ≠ 1) (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) :=
  broadcastInDim_apply ![0, 1] h x (ix2 n c) (ix2 n (0 : Fin 1)) (fun a => by
    match a with
    | ⟨0, _⟩ =>
      show n.val = if N = 1 then 0 else n.val
      rw [if_neg hN]
    | ⟨1, _⟩ =>
      show (0 : ℕ) = if (1 : ℕ) = 1 then 0 else c.val
      rw [if_pos rfl])

/-- A bias vector laid out as a row and repeated down `N` rows. -/
theorem bias_rows_apply {α : Type} {N C : Nat} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (n : Fin N) (c : Fin C) :
    broadcastInDim ⟨2, ![N, C]⟩ ![0, 1] h2 (broadcastInDim ⟨2, ![1, C]⟩ ![1] h1 b) (ix2 n c) = b (ix1 c) :=
  (broadcastInDim_apply ![0, 1] h2 _ (ix2 n c) (ix2 (0 : Fin 1) c) (fun a => by
    match a with
    | ⟨0, _⟩ =>
      show (0 : ℕ) = if (1 : ℕ) = 1 then 0 else n.val
      rw [if_pos rfl]
    | ⟨1, _⟩ =>
      show c.val = if C = 1 then 0 else c.val
      rw [if_neg hC])).trans
  (broadcastInDim_apply ![1] h1 b (ix2 (0 : Fin 1) c) (ix1 c) (fun a => by
    match a with
    | ⟨0, _⟩ =>
      show c.val = if C = 1 then 0 else c.val
      rw [if_neg hC]))

/-- A rank-0 value broadcast over a shape. -/
theorem scalar_apply {α : Type} {s : Shape} (x : (⟨0, ![]⟩ : Shape).Idx → α)
    (h : (⟨0, ![]⟩ : Shape).BroadcastsInDim s ![]) (i : s.Idx) :
    broadcastInDim s ![] h x i = x ix0 :=
  broadcastInDim_apply (s := ⟨0, ![]⟩) ![] h x i ix0 (fun a => a.elim0)

end Cert.Bcast

end
-- ==== Proof.LibColumn.lean ====
/-
  A vector as a column. A length-`a` vector reshaped to `[a, 1]` reads, at `(i, 0)`, the vector at `i`; and an
  `[a, 1]` column broadcast across `b` columns reads, at `(p, c)`, the column at `(p, 0)`. (The companions for
  a row `[1, a]` are the library's.)
-/
import Idealize.ShloMosaic.Lib.ValueLayout
import Idealize.ShloMosaic.Lib.Pipeline.Value

noncomputable section

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.LibRowLayer.lean ====
/-
  Two building blocks of a row-wise network layer, each in the vector unit's spelling and in the host's,
  read at one entry on the extended reals.

  * A dense layer: the product of an [R, K] array with a [K, N] weight matrix plus a length-N bias
    repeated down the rows holds at (p, c) the sum over q of l[p, q] · r[q, c], plus b[c].
  * A vector of length R laid out as a column and repeated across C lanes holds at (p, c) the vector's
    entry p (what a keep-dims row statistic is subtracted or divided by).
  Any extents (an extent that is not a unit axis is assumed different from 1, as the broadcast rules
  branch on it); depends on no program.
-/
import proofs.«114628_j37194416783909_1_alg».proof.Proof.LibPlainDot
import proofs.«114628_j37194416783909_1_alg».proof.Proof.LibRowBias
import proofs.«114628_j37194416783909_1_alg».proof.Proof.LibBroadcast
import proofs.«114628_j37194416783909_1_alg».proof.Proof.LibColumn

noncomputable section

open scoped BigOperators

namespace Cert.RowLayer

open Idealize.ShloMosaic Idealize.ShloMosaic.ValueIdx

/-- A dense layer in the vector unit's spelling: a matrix product into a zero accumulator plus the bias
    reshaped to a row and broadcast down the rows. -/
theorem kernel_dense {R K N : ℕ} {d : DotDims ⟨2, ![R, K]⟩ ⟨2, ![K, N]⟩ ⟨2, ![R, N]⟩} (hd : PlainDot.IsPlain d) (hN : N ≠ 1)
    (prec : Option ContractPrecision) {φ₁ φ₂ : FTy} (l : FVec Ideal ⟨2, ![R, K]⟩ φ₁) (r : FVec Ideal ⟨2, ![K, N]⟩ φ₂)
    (b : FVec Ideal ⟨1, ![N]⟩ .f32) (hs : (⟨1, ![N]⟩ : Shape).ShapeCasts ⟨2, ![1, N]⟩)
    (hb : (⟨2, ![1, N]⟩ : Shape).Broadcasts ⟨2, ![R, N]⟩) (p : Fin R) (c : Fin N) :
    addf (matmul d prec l r (constant ⟨2, ![R, N]⟩ .f32 0x00000000#32)) (broadcastTo ⟨2, ![R, N]⟩ (shapeCast ⟨2, ![1, N]⟩ b hs) hb) (ix2 p c)
      = (∑ q : Fin K, l (ix2 p q) * r (ix2 q c)) + b (ix1 c) :=
  congrArg₂ (· + ·) (PlainDot.matmul_zero_apply hd prec l r p c) (RowBias.bias_rows hN b hs hb p c)

/-- A dense layer in the host's spelling: a `dot_general` plus the bias broadcast to a row and then down the rows. -/
theorem host_dense {R K N : ℕ} {d : DotDims ⟨2, ![R, K]⟩ ⟨2, ![K, N]⟩ ⟨2, ![R, N]⟩} (hd : PlainDot.IsPlain d) (hN : N ≠ 1)
    (prec : Option ContractPrecision) (l : FVec Ideal ⟨2, ![R, K]⟩ .f32) (r : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![R, N]⟩ ![0, 1]) (p : Fin R) (c : Fin N) :
    addf (Host.dotGeneral d prec l r) (broadcastInDim ⟨2, ![R, N]⟩ ![0, 1] h2 (broadcastInDim ⟨2, ![1, N]⟩ ![1] h1 b)) (ix2 p c)
      = (∑ q : Fin K, l (ix2 p q) * r (ix2 q c)) + b (ix1 c) :=
  congrArg₂ (· + ·) (PlainDot.dotGeneral_apply hd prec l r p c) (Bcast.bias_rows_apply hN b h1 h2 p c)

/-- A vector as a column across the lanes, in the vector unit's spelling. -/
theorem kernel_across {α : Type} {R C : ℕ} (v : (⟨1, ![R]⟩ : Shape).Idx → α) (hs : (⟨1, ![R]⟩ : Shape).ShapeCasts ⟨2, ![R, 1]⟩)
    (hb : (⟨2, ![R, 1]⟩ : Shape).Broadcasts ⟨2, ![R, C]⟩) (p : Fin R) (c : Fin C) :
    broadcastTo ⟨2, ![R, C]⟩ (shapeCast ⟨2, ![R, 1]⟩ v hs) hb (ix2 p c) = v (ix1 p) :=
  (Column.broadcastTo_a1_ab_apply _ hb p c).trans (Column.shapeCast_a_a1_apply v hs p 0)

/-- A vector as a column across the lanes, in the host's spelling. -/
theorem host_across {α : Type} {R C : ℕ} (hR : R ≠ 1) (v : (⟨1, ![R]⟩ : Shape).Idx → α)
    (h1 : (⟨1, ![R]⟩ : Shape).BroadcastsInDim ⟨2, ![R, 1]⟩ ![0])
    (h2 : (⟨2, ![R, 1]⟩ : Shape).BroadcastsInDim ⟨2, ![R, C]⟩ ![0, 1]) (p : Fin R) (c : Fin C) :
    broadcastInDim ⟨2, ![R, C]⟩ ![0, 1] h2 (broadcastInDim ⟨2, ![R, 1]⟩ ![0] h1 v) (ix2 p c) = v (ix1 p) :=
  (Bcast.rows_of_col_apply hR _ h2 p c).trans (Bcast.col_apply hR v h1 p 0)

end Cert.RowLayer

end
-- ==== Proof.LibRowLogSoftmax.lean ====
/-
  Log-softmax along the rows of a matrix, in the vector unit's spelling and in the host's, read at one entry
  on the extended reals.

  Both lowerings of `log_softmax(x, axis = -1)` on an [R, C] array take the row's maximum as a fold of `max`
  from −∞ (the host once more against a −∞ splat, which changes nothing: a fold of `max` is at least the value
  it starts from), subtract it as a column repeated across the lanes, exponentiate, sum the row from zero, take
  the logarithm of that sum while it is still a column, and subtract it repeated across the lanes. At entry
  (p, c) each is the same function `logSoftmax` of row p:

      x[p, c] − M − log (∑ₖ exp (x[p, k] − M)),        M = max over k of x[p, k].

  The only law of the extended reals used is `b ≤ fold max b f`; otherwise the two spellings are the same
  operations in the same order. Any extents (the host's broadcast rule needs R ≠ 1); depends on no program.
-/
import proofs.«114628_j37194416783909_1_alg».proof.Proof.LibAxisFold
import proofs.«114628_j37194416783909_1_alg».proof.Proof.LibHostRowFold
import proofs.«114628_j37194416783909_1_alg».proof.Proof.LibRowLayer

noncomputable section

open scoped BigOperators

namespace Cert.RowLogSoftmax

open Idealize.ShloMosaic Idealize.ShloMosaic.ValueIdx

/-- −∞, as the f32 word both programs print. -/
abbrev ninf : EReal := Ideal.ofBits .f32 0xFF800000#32

/-- A row's maximum: the fold of `max` from −∞. -/
def top {n : ℕ} (l : Fin n → EReal) : EReal := (Finset.univ : Finset (Fin n)).fold max ninf l
/-- An entry shifted by the row's maximum. -/
def shifted {n : ℕ} (l : Fin n → EReal) (c : Fin n) : EReal := l c - top l
/-- The row's log-softmax: the shifted entry minus the logarithm of the sum of the shifted exponentials. -/
def logSoftmax {n : ℕ} (l : Fin n → EReal) (c : Fin n) : EReal :=
  shifted l c - Ideal.log (∑ k : Fin n, Ideal.exp (shifted l k))

/-- A fold of `max` is at least the value it starts from, so one more `max` against that value changes nothing. -/
theorem max_fold {n : ℕ} (b : EReal) (l : Fin n → EReal) :
    max b ((Finset.univ : Finset (Fin n)).fold max b l) = (Finset.univ : Finset (Fin n)).fold max b l :=
  max_eq_right ((Finset.le_fold_max b).mpr (Or.inl le_rfl))

section Kernel

variable {R C : ℕ} (lg : FVec Ideal ⟨2, ![R, C]⟩ .f32)
  (hr : (⟨2, ![R, C]⟩ : Shape).Reduces [1] ⟨1, ![R]⟩) (hφ : FKind.Formats .f32)
  (hmax : (0xFF800000#32 : BitVec (FTy.f32).bits) = FKind.maximumf.neutral .f32 hφ)
  (hadd : (0x00000000#32 : BitVec (FTy.f32).bits) = FKind.add.neutral .f32 hφ)
  (hs : (⟨1, ![R]⟩ : Shape).ShapeCasts ⟨2, ![R, 1]⟩) (hb : (⟨2, ![R, 1]⟩ : Shape).Broadcasts ⟨2, ![R, C]⟩)

/-- The entries shifted by their row's maximum, as the vector unit computes them. -/
abbrev kernelShift : FVec Ideal ⟨2, ![R, C]⟩ .f32 :=
  subf lg (broadcastTo ⟨2, ![R, C]⟩ (shapeCast ⟨2, ![R, 1]⟩
    (multiReduction .maximumf [1] ⟨1, ![R]⟩ lg 0xFF800000#32 hr hφ hmax) hs) hb)

/-- The vector unit's shifted entry at (p, c): the entry minus the maximum of row p. -/
theorem kernel_shift (p : Fin R) (c : Fin C) :
    kernelShift lg hr hφ hmax hs hb (ix2 p c) = shifted (fun k => lg (ix2 p k)) c :=
  congrArg (fun z : EReal => lg (ix2 p c) - z)
    ((RowLayer.kernel_across _ hs hb p c).trans (AxisFold.row_max lg 0xFF800000#32 hr hφ hmax p))

/-- The vector unit's log-softmax, at entry (p, c): the logarithm is taken of the row sums laid out as a
    column, and the column is then repeated across the lanes. -/
theorem kernel_logSoftmax (p : Fin R) (c : Fin C) :
    subf (kernelShift lg hr hφ hmax hs hb)
      (broadcastTo ⟨2, ![R, C]⟩ (log (shapeCast ⟨2, ![R, 1]⟩
        (multiReduction .add [1] ⟨1, ![R]⟩ (exp (kernelShift lg hr hφ hmax hs hb)) 0x00000000#32 hr hφ hadd) hs)) hb) (ix2 p c)
      = logSoftmax (fun k => lg (ix2 p k)) c :=
  congrArg₂ (fun a b : EReal => a - b) (kernel_shift lg hr hφ hmax hs hb p c)
    ((Column.broadcastTo_a1_ab_apply _ hb p c).trans
      (congrArg Ideal.log
        ((Column.shapeCast_a_a1_apply _ hs p 0).trans
          ((AxisFold.row_sum (exp (kernelShift lg hr hφ hmax hs hb)) hr hφ hadd p).trans
            (Finset.sum_congr rfl fun k _ => congrArg Ideal.exp (kernel_shift lg hr hφ hmax hs hb p k))))))

end Kernel

section Host

variable {R C : ℕ} (lg : FVec Ideal ⟨2, ![R, C]⟩ .f32)
  (h' : (⟨2, ![R, C]⟩ : Shape).ReducesTo [1] ⟨1, ![R]⟩) (hu : 0 < (⟨0, ![]⟩ : Shape).numel)
  (h0 : (⟨0, ![]⟩ : Shape).BroadcastsInDim ⟨1, ![R]⟩ ![])
  (h1 : (⟨1, ![R]⟩ : Shape).BroadcastsInDim ⟨2, ![R, 1]⟩ ![0])
  (h2 : (⟨2, ![R, 1]⟩ : Shape).BroadcastsInDim ⟨2, ![R, C]⟩ ![0, 1])

/-- The entries shifted by their row's maximum, as the host computes them (the maximum once more against a
    −∞ splat). -/
abbrev hostShift : FVec Ideal ⟨2, ![R, C]⟩ .f32 :=
  subf lg (broadcastInDim ⟨2, ![R, C]⟩ ![0, 1] h2 (broadcastInDim ⟨2, ![R, 1]⟩ ![0] h1
    (maximumf (broadcastInDim ⟨1, ![R]⟩ ![] h0 (constant (F := Ideal) ⟨0, ![]⟩ .f32 0xFF800000#32))
      (Host.reduce FloatOps.maximumf lg (constant (F := Ideal) ⟨0, ![]⟩ .f32 0xFF800000#32) h' hu))))

/-- The host's shifted entry at (p, c): the entry minus the maximum of row p; the extra `max` against −∞
    is absorbed because the fold already starts from −∞. -/
theorem host_shift (hR : R ≠ 1) (p : Fin R) (c : Fin C) :
    hostShift lg h' hu h0 h1 h2 (ix2 p c) = shifted (fun k => lg (ix2 p k)) c :=
  congrArg (fun z : EReal => lg (ix2 p c) - z)
    ((RowLayer.host_across hR _ h1 h2 p c).trans
      ((congrArg₂ max (Bcast.scalar_apply _ h0 (ix1 p)) (HostRowFold.row_max lg _ h' hu p)).trans
        (max_fold ninf fun k => lg (ix2 p k))))

/-- The host's log-softmax, at entry (p, c): the logarithm is taken of the row sums laid out as a column,
    between the two broadcasts. -/
theorem host_logSoftmax (hR : R ≠ 1) (p : Fin R) (c : Fin C) :
    subf (hostShift lg h' hu h0 h1 h2)
      (broadcastInDim ⟨2, ![R, C]⟩ ![0, 1] h2 (Host.log (broadcastInDim ⟨2, ![R, 1]⟩ ![0] h1
        (Host.reduceAdd (Host.exp (hostShift lg h' hu h0 h1 h2)) (constant (F := Ideal) ⟨0, ![]⟩ .f32 0x00000000#32) h' hu)))) (ix2 p c)
      = logSoftmax (fun k => lg (ix2 p k)) c :=
  congrArg₂ (fun a b : EReal => a - b) (host_shift lg h' hu h0 h1 h2 hR p c)
    ((Bcast.rows_of_col_apply hR _ h2 p c).trans
      (congrArg Ideal.log
        ((Bcast.col_apply hR _ h1 p 0).trans
          ((HostRowFold.row_sum_zero (Host.exp (hostShift lg h' hu h0 h1 h2)) h' hu p).trans
            (Finset.sum_congr rfl fun k _ => congrArg Ideal.exp (host_shift lg h' hu h0 h1 h2 hR p k))))))

end Host

end Cert.RowLogSoftmax

end
-- ==== Proof.Spec.lean ====
/-
  A two-layer neighbourhood-mean graph network on the extended reals, as whole-array functions.

  A node's neighbour sums `agg f` (an arbitrary function of the feature matrix here) are turned into a mean either by
  dividing by the degree `d` (`meanDiv`) or by multiplying with the degree's reciprocal (`meanMul`). One layer is
      ELU (a · wl + x · wr + b),
  `a` the mean and `x` the node's own features, and the network is two layers followed by a log-softmax along each
  row. The log-softmax is written either as (entry − M) − log Σ exp (entry − M) (`lsm`) or as
  entry − (M + log Σ exp (entry − M)) (`lsmK`), M the row's maximum.
-/
import proofs.«114628_j37194416783909_1_alg».proof.Proof.LibGraphConv
import proofs.«114628_j37194416783909_1_alg».proof.Proof.LibElu
import proofs.«114628_j37194416783909_1_alg».proof.Proof.LibRowLogSoftmax

noncomputable section

open scoped BigOperators

namespace Cert.Sage

open Idealize.ShloMosaic Idealize.ShloMosaic.ValueIdx Cert.GraphConv

variable {N K C : Nat}

/-- The neighbour sums divided by the node's degree. -/
def meanDiv (s : Mat N K) (d : Vect N) : Mat N K := fun j => Ideal.div (s j) (d (ix1 (j 0)))

/-- The neighbour sums times the reciprocal of the node's degree. -/
def meanMul (s : Mat N K) (d : Vect N) : Mat N K := fun j => s j * Ideal.div 1 (d (ix1 (j 0)))

/-- One layer: ELU of a · wl + x · wr + b. -/
def layer (a x : Mat N K) (wl wr : Mat K C) (b : Vect C) : Mat N C :=
  fun j => Cert.Elu.eluS (conv a x wl wr (row b) j)

/-- Row p of a matrix as a function of the column. -/
abbrev rowOf (a : Mat N C) (p : Fin N) : Fin C → EReal := fun k => a (ix2 p k)

/-- Log-softmax along the rows: the shifted entry minus the logarithm of the sum of the shifted exponentials. -/
def lsm (a : Mat N C) : Mat N C := fun j => RowLogSoftmax.logSoftmax (rowOf a (j 0)) (j 1)

/-- Log-softmax along the rows: the entry minus (the row's maximum plus the logarithm of the sum of the shifted
    exponentials). -/
def lsmK (a : Mat N C) : Mat N C := fun j =>
  a j - (RowLogSoftmax.top (rowOf a (j 0))
    + Ideal.log (∑ k : Fin C, Ideal.exp (RowLogSoftmax.shifted (rowOf a (j 0)) k)))

/-- The network with the mean as a quotient and the log-softmax as a difference of differences. -/
def refNet (agg : Mat N K → Mat N K) (d : Vect N) (x : Mat N K) (wl0 wr0 : Mat K K) (b0 : Vect K)
    (wl1 wr1 : Mat K C) (b1 : Vect C) : Mat N C :=
  lsm (layer (meanDiv (agg (layer (meanDiv (agg x) d) x wl0 wr0 b0)) d) (layer (meanDiv (agg x) d) x wl0 wr0 b0) wl1 wr1 b1)

/-- The network with the mean as a product and the log-softmax as one difference. -/
def kerNet (agg : Mat N K → Mat N K) (d : Vect N) (x : Mat N K) (wl0 wr0 : Mat K K) (b0 : Vect K)
    (wl1 wr1 : Mat K C) (b1 : Vect C) : Mat N C :=
  lsmK (layer (meanMul (agg (layer (meanMul (agg x) d) x wl0 wr0 b0)) d) (layer (meanMul (agg x) d) x wl0 wr0 b0) wl1 wr1 b1)

end Cert.Sage

end
-- ==== Proof.KerBody.lean ====
/-
  What the two kernel bodies compute from their loaded blocks, on the extended reals.

  The first body forms  a · wl + x · wr  as two matrix products into zero accumulators, adds the bias laid out as a
  row and repeated down the rows, and applies ELU in the form  select (u > 0) u (exp u − 1): that is one layer of the
  block's rows (rounding the operands to a narrower float format is the identity on extended reals). The second body
  does the same and then takes the log-softmax of each row as  entry − (M + log Σ exp (entry − M)),  M the row's
  maximum taken as a fold of max from −∞, the sum taken from zero, the logarithm taken while the sums are still a
  column.
-/
import proofs.«114628_j37194416783909_1_alg».proof.Proof.Spec
import proofs.«114628_j37194416783909_1_alg».proof.Proof.Gen.KernelIdeal.Skeleton
import Idealize.ShloMosaic.Lib.Pipeline.Value

set_option maxRecDepth 16384

noncomputable section

open scoped BigOperators

namespace Cert.Sage

open Idealize.ShloMosaic Idealize.ShloMosaic.ValueIdx Cert.GraphConv

section Unit
variable {M K N : Nat} {d : DotDims ⟨2, ![M, K]⟩ ⟨2, ![K, N]⟩ ⟨2, ![M, N]⟩}

/-- Two products into zero accumulators added, plus the bias vector laid out as a row and repeated down the rows,
    then ELU as a select: one layer. -/
theorem layer_unit (hd : Cert.PlainDot.IsPlain d) (prec : Option ContractPrecision) {φ₁ φ₂ : FTy}
    (a x : FVec Ideal ⟨2, ![M, K]⟩ φ₁) (wl wr : FVec Ideal ⟨2, ![K, N]⟩ φ₂) (b : FVec Ideal ⟨1, ![N]⟩ .f32)
    (hs : (⟨1, ![N]⟩ : Shape).ShapeCasts ⟨2, ![1, N]⟩) (hb : (⟨2, ![1, N]⟩ : Shape).Broadcasts ⟨2, ![M, N]⟩)
    (pre : FVec Ideal ⟨2, ![M, N]⟩ .f32)
    (hpre : pre = addf (addf (matmul d prec a wl (constant ⟨2, ![M, N]⟩ .f32 0x00000000#32))
        (matmul d prec x wr (constant ⟨2, ![M, N]⟩ .f32 0x00000000#32)))
        (broadcastTo ⟨2, ![M, N]⟩ (shapeCast ⟨2, ![1, N]⟩ b hs) hb)) :
    select (cmpf .ogt pre (broadcast ⟨2, ![M, N]⟩ (Scalar.ofBits (F := Ideal) .f32 0x00000000#32))) pre
        (subf (exp pre) (broadcast ⟨2, ![M, N]⟩ (Scalar.ofBits (F := Ideal) .f32 0x3F800000#32)))
      = layer a x wl wr b := by
  subst hpre
  rw [reshape_row, conv_unit hd]
  rfl

end Unit

section Rows
variable {R C : ℕ} (lg : FVec Ideal ⟨2, ![R, C]⟩ .f32)
  (hr : (⟨2, ![R, C]⟩ : Shape).Reduces [1] ⟨1, ![R]⟩) (hφ : FKind.Formats .f32)
  (hmax : (0xFF800000#32 : BitVec (FTy.f32).bits) = FKind.maximumf.neutral .f32 hφ)
  (hadd : (0x00000000#32 : BitVec (FTy.f32).bits) = FKind.add.neutral .f32 hφ)
  (hs : (⟨1, ![R]⟩ : Shape).ShapeCasts ⟨2, ![R, 1]⟩) (hb : (⟨2, ![R, 1]⟩ : Shape).Broadcasts ⟨2, ![R, C]⟩)

/-- The log-softmax with the row's maximum and the logarithm of the row's sum ADDED as columns before the one
    subtraction: entry − (M + log Σ exp (entry − M)). -/
theorem lsmK_unit :
    subf lg (broadcastTo ⟨2, ![R, C]⟩
      (addf (shapeCast ⟨2, ![R, 1]⟩ (multiReduction .maximumf [1] ⟨1, ![R]⟩ lg 0xFF800000#32 hr hφ hmax) hs)
        (log (shapeCast ⟨2, ![R, 1]⟩
          (multiReduction .add [1] ⟨1, ![R]⟩ (exp (RowLogSoftmax.kernelShift lg hr hφ hmax hs hb)) 0x00000000#32 hr hφ hadd) hs))) hb)
      = lsmK lg := by
  funext j
  obtain ⟨p, c, rfl⟩ : ∃ (p : Fin R) (c : Fin C), j = ix2 p c := ⟨j 0, j 1, eq_ix2 j⟩
  refine congrArg (fun z : EReal => lg (ix2 p c) - z) ?_
  refine (Column.broadcastTo_a1_ab_apply _ hb p c).trans ?_
  refine congrArg₂ (fun u v : EReal => u + v) ?_ ?_
  · exact (Column.shapeCast_a_a1_apply _ hs p 0).trans (AxisFold.row_max lg 0xFF800000#32 hr hφ hmax p)
  · refine congrArg Ideal.log ?_
    refine (Column.shapeCast_a_a1_apply _ hs p 0).trans ?_
    refine (AxisFold.row_sum (exp (RowLogSoftmax.kernelShift lg hr hφ hmax hs hb)) hr hφ hadd p).trans ?_
    exact Finset.sum_congr rfl fun k _ => congrArg Ideal.exp (RowLogSoftmax.kernel_shift lg hr hφ hmax hs hb p k)

end Rows

/-! ## The two bodies -/

section Bodies

open Cert.KernelIdeal Cert.KernelIdeal.Gen Cert.KernelIdeal.Facts₀ Cert.KernelIdeal.Facts

theorem plain0 : Cert.PlainDot.IsPlain dot_S2000x128_S128x128_S2000x128_1_0_0_1_n_n := ⟨rfl, rfl, rfl, rfl, rfl, rfl⟩
theorem plain1 : Cert.PlainDot.IsPlain dot_S2000x128_S128x40_S2000x40_1_0_0_1_n_n := ⟨rfl, rfl, rfl, rfl, rfl, rfl⟩

/-- The first body's stored value is one layer of its loaded blocks. -/
theorem pay0_eq (x0 x1 : Vec Ideal S2000x128 .f32) (x2 x3 : Vec Ideal S128x128 .f32) (x4 : Vec Ideal S128 .f32) :
    k0_pay1 (F := Ideal) x0 x1 x2 x3 x4 = layer x0 x1 x2 x3 x4 := by
  unfold k0_pay1
  dsimp only
  rw [layer_unit plain0 none _ _ _ _ x4 _ _ _ rfl, shapeCast_self]
  rfl

/-- The second body's stored value is the row-wise log-softmax of one layer of its loaded blocks. -/
theorem pay1_eq (x0 x1 : Vec Ideal S2000x128 .f32) (x2 x3 : Vec Ideal S128x40 .f32) (x4 : Vec Ideal S40 .f32) :
    k1_pay1 (F := Ideal) x0 x1 x2 x3 x4 = lsmK (layer x0 x1 x2 x3 x4) := by
  unfold k1_pay1
  dsimp only
  rw [layer_unit plain1 none _ _ _ _ x4 _ _ _ rfl, shapeCast_self, shapeCast_self]
  exact lsmK_unit _ _ _ _ _ _ _

end Bodies

end Cert.Sage

end
-- ==== Proof.KerBlocks.lean ====
/-
  From the blocks the pipelines write back to the two regions' output arrays.

  Each region runs its body at 25 grid points; point t reads rows 2000·t … 2000·t + 1999 of the two feature arrays and
  the whole of the two weight matrices and of the bias, and writes back the same rows of the output. An entry of a
  layer (and of its row-wise log-softmax) depends on one row of the two feature arrays only, so what point t writes
  back is block t of ONE function of the whole arrays; the 25 blocks tile the 50000 rows; hence the output array ends
  holding that function. Everything is stated at a parameter V, the buffer contents the region is entered with.
-/
import proofs.«114628_j37194416783909_1_alg».proof.Proof.KerBody
import proofs.«114628_j37194416783909_1_alg».proof.Proof.Gen.KernelIdeal.Frame
import Idealize.ShloMosaic.Lib.Pipeline.Value

set_option maxRecDepth 16384

noncomputable section

open scoped BigOperators

namespace Cert.Sage

open Idealize.ShloMosaic Idealize.ShloMosaic.TcCoe Idealize.ShloMosaic.ValueIdx Cert.GraphConv

section AtARow
variable {M M' K N : Nat}

/-- An entry of a layer of a tile of rows is the entry of the layer of the whole arrays in the same column and in
    the row the tile's row is taken from. -/
theorem layer_at (a x : Mat M K) (a' x' : Mat M' K) (wl wr : Mat K N) (b : Vect N)
    (j : (⟨2, ![M, N]⟩ : Shape).Idx) (i : (⟨2, ![M', N]⟩ : Shape).Idx) (hc : j 1 = i 1)
    (ha : ∀ q : Fin K, a (ix2 (j 0) q) = a' (ix2 (i 0) q)) (hx : ∀ q : Fin K, x (ix2 (j 0) q) = x' (ix2 (i 0) q)) :
    layer a x wl wr b j = layer a' x' wl wr b i :=
  congrArg Cert.Elu.eluS (conv_at a x a' x' wl wr (row b) j i hc ha hx)

/-- The same for the row-wise log-softmax of a layer: the whole row of the tile is the whole row of the array. -/
theorem lsmK_at (a x : Mat M K) (a' x' : Mat M' K) (wl wr : Mat K N) (b : Vect N)
    (j : (⟨2, ![M, N]⟩ : Shape).Idx) (i : (⟨2, ![M', N]⟩ : Shape).Idx) (hc : j 1 = i 1)
    (ha : ∀ q : Fin K, a (ix2 (j 0) q) = a' (ix2 (i 0) q)) (hx : ∀ q : Fin K, x (ix2 (j 0) q) = x' (ix2 (i 0) q)) :
    lsmK (layer a x wl wr b) j = lsmK (layer a' x' wl wr b) i := by
  have hrow : rowOf (layer a x wl wr b) (j 0) = rowOf (layer a' x' wl wr b) (i 0) := funext fun k =>
    layer_at a x a' x' wl wr b (ix2 (j 0) k) (ix2 (i 0) k) rfl ha hx
  have hent : layer a x wl wr b j = layer a' x' wl wr b i := layer_at a x a' x' wl wr b j i hc ha hx
  unfold lsmK
  rw [hrow, hent]

end AtARow

open Cert.KernelIdeal Cert.KernelIdeal.Gen Cert.KernelIdeal.Facts₀ Cert.KernelIdeal.Facts
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a; rfl

variable (V : (c : Dev nD) → (b : Ref sig .tc) → Buf (Elt Ideal) ((c : Thread nD τ).loc b))

/-! ## Region 0 -/

/-- The printed index maps of region 0, decided over its 25 grid points: the two row-tiled inputs and the output move
    together, block t being rows 2000·t … 2000·t + 1999, and the weight and bias windows stay at block zero. -/
theorem idx_facts0 : ∀ t : Fin cfg0.N, win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ t.val < 25 :=
  (by decide +kernel : ∀ t : Fin grid0.N, _)

/-- The left weight's window is the whole matrix at every point. -/
theorem blk0_2 (c : Dev nD) (t : Fin cfg0.N) : iblk0 V c 2 t = V c main_arg2 := by
  funext y
  show V c main_arg2 (((cfg0.win 2).blk t).view.emb y) = V c main_arg2 y
  refine congrArg _ (funext fun a => Fin.ext ?_)
  obtain ⟨-, -, -, -, -, -, e0, e1, -, -, -, -⟩ := idx_facts0 t
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The right weight's window is the whole matrix at every point. -/
theorem blk0_3 (c : Dev nD) (t : Fin cfg0.N) : iblk0 V c 3 t = V c main_arg3 := by
  funext y
  show V c main_arg3 (((cfg0.win 3).blk t).view.emb y) = V c main_arg3 y
  refine congrArg _ (funext fun a => Fin.ext ?_)
  obtain ⟨-, -, -, -, -, -, -, -, e0, e1, -, -⟩ := idx_facts0 t
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The bias window is the whole vector at every point. -/
theorem blk0_4 (c : Dev nD) (t : Fin cfg0.N) : iblk0 V c 4 t = V c main_arg4 := by
  funext y
  show V c main_arg4 (((cfg0.win 4).blk t).view.emb y) = V c main_arg4 y
  refine congrArg _ (funext fun a => Fin.ext ?_)
  obtain ⟨-, -, -, -, -, -, -, -, -, -, e0, -⟩ := idx_facts0 t
  match a with
  | ⟨0, _⟩ => show win0_4.index t (0 : Fin 1) * 128 + 1 * (y 0).val = (y 0).val; omega

/-- What the region's output array holds in the end, as one function of the arrays the region finds. -/
abbrev G0 (c : Dev nD) : S50000x128.Idx → EReal :=
  layer (V c main_v24) (V c main_arg0) (V c main_arg2) (V c main_arg3) (V c main_arg4)

/-- What point t writes back is block t of that function: an entry of a layer depends on one row of the two feature
    operands only, and row y of block t is row 2000·t + y of the array. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz2]
  simp only [View.ld_unit_zero (S := S2000x128) hz2, View.ld_unit_zero (S := S128x128) hz2, View.ld_unit_zero (S := S128) hz1]
  rw [pay0_eq, blk0_2, blk0_3, blk0_4]
  obtain ⟨o0, o1, a0, a1, x0, x1, -, -, -, -, -, -⟩ := idx_facts0 t
  funext j
  have hc : j 1 = (((cfg0.win 5).blk t).view.emb j) 1 := Fin.ext (by
    show (j 1).val = win0_5.index t (1 : Fin 2) * 128 + 1 * (j 1).val; omega)
  have ha : ∀ q : Fin 128, iblk0 V c 0 t (ix2 (j 0) q) = V c main_v24 (ix2 ((((cfg0.win 5).blk t).view.emb j) 0) q) := fun q => by
    show V c main_v24 (((cfg0.win 0).blk t).view.emb (ix2 (j 0) q)) = _
    refine congrArg _ (funext fun a => Fin.ext ?_)
    match a with
    | ⟨0, _⟩ => show win0_0.index t (0 : Fin 2) * 2000 + 1 * (j 0).val = win0_5.index t (0 : Fin 2) * 2000 + 1 * (j 0).val; omega
    | ⟨1, _⟩ => show win0_0.index t (1 : Fin 2) * 128 + 1 * q.val = q.val; omega
  have hx : ∀ q : Fin 128, iblk0 V c 1 t (ix2 (j 0) q) = V c main_arg0 (ix2 ((((cfg0.win 5).blk t).view.emb j) 0) q) := fun q => by
    show V c main_arg0 (((cfg0.win 1).blk t).view.emb (ix2 (j 0) q)) = _
    refine congrArg _ (funext fun a => Fin.ext ?_)
    match a with
    | ⟨0, _⟩ => show win0_1.index t (0 : Fin 2) * 2000 + 1 * (j 0).val = win0_5.index t (0 : Fin 2) * 2000 + 1 * (j 0).val; omega
    | ⟨1, _⟩ => show win0_1.index t (1 : Fin 2) * 128 + 1 * q.val = q.val; omega
  exact layer_at (iblk0 V c 0 t) (iblk0 V c 1 t) (V c main_v24) (V c main_arg0) (V c main_arg2) (V c main_arg3) (V c main_arg4) j (((cfg0.win 5).blk t).view.emb j) hc ha hx

/-- An index of the output array is in point t's block iff each coordinate is in the block's range on its axis. -/
theorem mem_blk0 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v25).slice (win0_5.rect t)).set ↔ _
  rw [View.set_slice_whole, Rect.mem_set_unit]
  exact Iff.rfl

/-- The 25 blocks of 2000 rows tile the 50000 rows: row n lies in block n / 2000. -/
theorem cover0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_5 _, ?_⟩
  obtain ⟨o0, o1, -, -, -, -, -, -, -, -, -, -⟩ := idx_facts0 ⟨(i 0).val / 2000, by rw [hN]; omega⟩
  rw [mem_blk0]
  intro a
  match a with
  | ⟨0, _⟩ =>
    show win0_5.index ⟨(i 0).val / 2000, _⟩ (0 : Fin 2) * 2000 ≤ (i 0).val ∧ (i 0).val < win0_5.index ⟨(i 0).val / 2000, _⟩ (0 : Fin 2) * 2000 + 2000
    rw [o0]; show (i 0).val / 2000 * 2000 ≤ (i 0).val ∧ (i 0).val < (i 0).val / 2000 * 2000 + 2000; omega
  | ⟨1, _⟩ =>
    show win0_5.index ⟨(i 0).val / 2000, _⟩ (1 : Fin 2) * 128 ≤ (i 1).val ∧ (i 1).val < win0_5.index ⟨(i 0).val / 2000, _⟩ (1 : Fin 2) * 128 + 128
    rw [o1]; omega

/-- The output array after the region is that function of the arrays the region finds. -/
theorem final0 (c : Dev nD) : (dat0 V c).arrAt 5 cfg0.N = G0 V c :=
  (dat0 V c).arrAt_eq_of_cover 5 (G0 V c) (fun t _ => flushed0_eq V c t) (cover0)

/-! ## Region 1 -/

/-- The printed index maps of region 1, decided over its 25 grid points: the two row-tiled inputs and the output move
    together, block t being rows 2000·t … 2000·t + 1999, and the weight and bias windows stay at block zero. -/
theorem idx_facts1 : ∀ t : Fin cfg1.N, win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0 ∧ t.val < 25 :=
  (by decide +kernel : ∀ t : Fin grid1.N, _)

/-- The left weight's window is the whole matrix at every point. -/
theorem blk1_2 (c : Dev nD) (t : Fin cfg1.N) : iblk1 V c 2 t = V c main_arg5 := by
  funext y
  show V c main_arg5 (((cfg1.win 2).blk t).view.emb y) = V c main_arg5 y
  refine congrArg _ (funext fun a => Fin.ext ?_)
  obtain ⟨-, -, -, -, -, -, e0, e1, -, -, -, -⟩ := idx_facts1 t
  match a with
  | ⟨0, _⟩ => show win1_2.index t (0 : Fin 2) * 128 + 1 * (y 0).val = (y 0).val; omega
  | ⟨1, _⟩ => show win1_2.index t (1 : Fin 2) * 40 + 1 * (y 1).val = (y 1).val; omega

/-- The right weight's window is the whole matrix at every point. -/
theorem blk1_3 (c : Dev nD) (t : Fin cfg1.N) : iblk1 V c 3 t = V c main_arg6 := by
  funext y
  show V c main_arg6 (((cfg1.win 3).blk t).view.emb y) = V c main_arg6 y
  refine congrArg _ (funext fun a => Fin.ext ?_)
  obtain ⟨-, -, -, -, -, -, -, -, e0, e1, -, -⟩ := idx_facts1 t
  match a with
  | ⟨0, _⟩ => show win1_3.index t (0 : Fin 2) * 128 + 1 * (y 0).val = (y 0).val; omega
  | ⟨1, _⟩ => show win1_3.index t (1 : Fin 2) * 40 + 1 * (y 1).val = (y 1).val; omega

/-- The bias window is the whole vector at every point. -/
theorem blk1_4 (c : Dev nD) (t : Fin cfg1.N) : iblk1 V c 4 t = V c main_arg7 := by
  funext y
  show V c main_arg7 (((cfg1.win 4).blk t).view.emb y) = V c main_arg7 y
  refine congrArg _ (funext fun a => Fin.ext ?_)
  obtain ⟨-, -, -, -, -, -, -, -, -, -, e0, -⟩ := idx_facts1 t
  match a with
  | ⟨0, _⟩ => show win1_4.index t (0 : Fin 1) * 40 + 1 * (y 0).val = (y 0).val; omega

/-- What the region's output array holds in the end, as one function of the arrays the region finds. -/
abbrev G1 (c : Dev nD) : S50000x40.Idx → EReal :=
  lsmK (layer (V c main_v38) (V c main_v25) (V c main_arg5) (V c main_arg6) (V c main_arg7))

/-- What point t writes back is block t of that function: an entry of a layer depends on one row of the two feature
    operands only, and row y of block t is row 2000·t + y of the array. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz2]
  simp only [View.ld_unit_zero (S := S2000x128) hz2, View.ld_unit_zero (S := S128x40) hz2, View.ld_unit_zero (S := S40) hz1]
  rw [pay1_eq, blk1_2, blk1_3, blk1_4]
  obtain ⟨o0, o1, a0, a1, x0, x1, -, -, -, -, -, -⟩ := idx_facts1 t
  funext j
  have hc : j 1 = (((cfg1.win 5).blk t).view.emb j) 1 := Fin.ext (by
    show (j 1).val = win1_5.index t (1 : Fin 2) * 40 + 1 * (j 1).val; omega)
  have ha : ∀ q : Fin 128, iblk1 V c 0 t (ix2 (j 0) q) = V c main_v38 (ix2 ((((cfg1.win 5).blk t).view.emb j) 0) q) := fun q => by
    show V c main_v38 (((cfg1.win 0).blk t).view.emb (ix2 (j 0) q)) = _
    refine congrArg _ (funext fun a => Fin.ext ?_)
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 128 + 1 * q.val = q.val; omega
  have hx : ∀ q : Fin 128, iblk1 V c 1 t (ix2 (j 0) q) = V c main_v25 (ix2 ((((cfg1.win 5).blk t).view.emb j) 0) q) := fun q => by
    show V c main_v25 (((cfg1.win 1).blk t).view.emb (ix2 (j 0) q)) = _
    refine congrArg _ (funext fun a => Fin.ext ?_)
    match a with
    | ⟨0, _⟩ => show win1_1.index t (0 : Fin 2) * 2000 + 1 * (j 0).val = win1_5.index t (0 : Fin 2) * 2000 + 1 * (j 0).val; omega
    | ⟨1, _⟩ => show win1_1.index t (1 : Fin 2) * 128 + 1 * q.val = q.val; omega
  exact lsmK_at (iblk1 V c 0 t) (iblk1 V c 1 t) (V c main_v38) (V c main_v25) (V c main_arg5) (V c main_arg6) (V c main_arg7) j (((cfg1.win 5).blk t).view.emb j) hc ha hx

/-- An index of the output array is in point t's block iff each coordinate is in the block's range on its axis. -/
theorem mem_blk1 (t : Fin cfg1.N) (i : S50000x40.Idx) :
    i ∈ ((cfg1.win 5).blk t).view.set ↔ ∀ a : Fin 2, win1_5.index t a * S2000x40.size a ≤ (i a).val ∧ (i a).val < win1_5.index t a * S2000x40.size a + S2000x40.size a := by
  show i ∈ ((View.whole main_v39).slice (win1_5.rect t)).set ↔ _
  rw [View.set_slice_whole, Rect.mem_set_unit]
  exact Iff.rfl

/-- The 25 blocks of 2000 rows tile the 50000 rows: row n lies in block n / 2000. -/
theorem cover1 (i : S50000x40.Idx) : ∃ t : Fin cfg1.N, (cfg1.win 5).flush t = true ∧ i ∈ ((cfg1.win 5).blk t).view.set := by
  have hi0 : (i 0).val < 50000 := (i 0).isLt
  have hi1 : (i 1).val < 40 := (i 1).isLt
  have hN : cfg1.N = 25 := N_1
  refine ⟨⟨(i 0).val / 2000, by rw [hN]; omega⟩, flush1_5 _, ?_⟩
  obtain ⟨o0, o1, -, -, -, -, -, -, -, -, -, -⟩ := idx_facts1 ⟨(i 0).val / 2000, by rw [hN]; omega⟩
  rw [mem_blk1]
  intro a
  match a with
  | ⟨0, _⟩ =>
    show win1_5.index ⟨(i 0).val / 2000, _⟩ (0 : Fin 2) * 2000 ≤ (i 0).val ∧ (i 0).val < win1_5.index ⟨(i 0).val / 2000, _⟩ (0 : Fin 2) * 2000 + 2000
    rw [o0]; show (i 0).val / 2000 * 2000 ≤ (i 0).val ∧ (i 0).val < (i 0).val / 2000 * 2000 + 2000; omega
  | ⟨1, _⟩ =>
    show win1_5.index ⟨(i 0).val / 2000, _⟩ (1 : Fin 2) * 40 ≤ (i 1).val ∧ (i 1).val < win1_5.index ⟨(i 0).val / 2000, _⟩ (1 : Fin 2) * 40 + 40
    rw [o1]; omega

/-- The output array after the region is that function of the arrays the region finds. -/
theorem final1 (c : Dev nD) : (dat1 V c).arrAt 5 cfg1.N = G1 V c :=
  (dat1 V c).arrAt_eq_of_cover 5 (G1 V c) (fun t _ => flushed1_eq V c t) (cover1)

end Cert.Sage

end
-- ==== Proof.KerRun.lean ====
/-
  The kernel program's run with its result array named.

  The program is two pipelined regions among stretches of host operations. The buffer contents at the four segment
  boundaries are a fold from the launch memory: after the first stretch, after region 0 (its arrays at what the
  write-backs leave), after the second stretch, after region 1. Every weakly fair execution terminates with every
  unscoped buffer at the last boundary's contents; read at the result array and at the eight argument arrays this is
  the statement below (the arguments walk back through the fold to the launch memory).
-/
import proofs.«114628_j37194416783909_1_alg».proof.Proof.Gen.KernelIdeal.Frame

set_option maxRecDepth 16384

noncomputable section

namespace Cert.KernelIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the argument arrays as launched. -/
theorem run_out : θ_run defs (onTc (τ := τ) (main (F := F))) ⟨m, fun _ => 0, ρ⟩ (fun r => ∀ c : Dev nD,
      r.2.mem ((c.tc : Thread nD τ).loc main_v39) = W4 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v39 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Out

end
-- ==== Proof.HostChain.lean ====
/-
  The host operations both programs apply to the edge list and to a feature matrix: the source indices wrapped
  (a negative index has the number of nodes added) and laid out as a column, the target indices laid out as a
  column, a row gather at the sources scatter-added into a zero matrix at the targets (the neighbour sums), and the
  degree: ones scatter-added into a zero vector at the targets, then the maximum with one.
-/
import proofs.«114628_j37194416783909_1_alg».proof.ReferenceIdeal
import Idealize.ShloMosaic.PureOps.Ideal

noncomputable section

namespace Cert.Sage

open Idealize.ShloMosaic Cert.ReferenceIdeal Cert.ReferenceIdeal.Facts₀

variable [Cert.ReferenceIdeal.Facts₀]

/-- The edge list's first row as a vector: the source node of each edge. -/
def srcIdx (ei : IVec S2x800000 32) : IVec S800000 32 :=
  fun i => shapeCast S800000 (extractStridedSlice S1x800000 ![0, 0] ei slices_S2x800000_S1x800000_0_0) shapeCasts_S1x800000_S800000 i

/-- The edge list's second row as a vector: the target node of each edge. -/
def dstIdx (ei : IVec S2x800000 32) : IVec S800000 32 :=
  fun i => shapeCast S800000 (extractStridedSlice S1x800000 ![1, 0] ei slices_S2x800000_S1x800000_1_0) shapeCasts_S1x800000_S800000 i

/-- The source indices as a column, a negative index wrapped by the number of nodes. -/
def srcCol (v1 : IVec S800000 32) : IVec S800000x1 32 :=
  broadcastInDim S800000x1 ![0] bcast_S800000_S800000x1_0
    (select (cmpi .slt v1 (broadcastInDim S800000 ![] bcast_S_S800000 (constantI S_ 32 0#32)))
      (addi v1 (broadcastInDim S800000 ![] bcast_S_S800000 (constantI S_ 32 50000#32))) v1)

/-- The target indices as a column. -/
def dstCol (v3 : IVec S800000 32) : IVec S800000x1 32 :=
  broadcastInDim S800000x1 ![0] bcast_S800000_S800000x1_0 v3

/-- The neighbour sums: rows gathered at the sources, scatter-added into a zero matrix at the targets. -/
def aggHost (v1 v3 : IVec S800000 32) (f : FVec Ideal S50000x128 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (dstCol v3)
    (Host.gather gather_S50000x128_S800000x1_S800000x128_1_0_n_n_0_1_1128 f (srcCol v1))

/-- The degree, at least one: ones scatter-added into a zero vector at the targets, then the maximum with one. -/
def degHost (v3 : IVec S800000 32) : FVec Ideal S50000 .f32 :=
  maximumf
    (Host.scatterAdd scatter_S50000_S800000x1_S800000_n_0_0_1
      (broadcastInDim S50000 ![] bcast_S_S50000 (constant (F := Ideal) S_ .f32 0x00000000#32))
      (dstCol v3)
      (broadcastInDim S800000 ![] bcast_S_S800000 (constant (F := Ideal) S_ .f32 0x3F800000#32)))
    (broadcastInDim S50000 ![] bcast_S_S50000 (constant (F := Ideal) S_ .f32 0x3F800000#32))

end Cert.Sage

end
-- ==== Proof.LibHostWalk.lean ====
/-
  Reading a buffer through a straight line of host operations: each operation's result at its own result buffer is
  its function of its operands' contents, and any other buffer keeps what it held. One pass rewrites a read at the end
  of the line into the composed term of the contents the line started from. A two-piece concatenation is restated
  with its two pieces as plain arguments, so that the pass also rewrites the reads inside the pieces.
-/
import Idealize.ShloMosaic.Lib.StableHlo.Run

set_option maxRecDepth 16384

noncomputable section

namespace Cert.HostWalk

open Idealize.ShloMosaic Idealize.ShloMosaic.StableHlo

/-- The concatenation of two pieces along an axis, the pieces as arguments. -/
def cat2 {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concatenate_pair {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = cat2 t a s₁ s₂ x₁ x₂ h := rfl

/-- Reads a buffer through the fold of a line of host operations (and through whatever further rewriting rules are
    given for the boundaries between lines). -/
macro "walk_back" "[" ls:Lean.Parser.Tactic.simpLemma,* "]" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.nullary, TRef.unary, TRef.binary, TRef.ternary, TRef.quaternary, TRef.reshape, TRef.toBuf, TRef.ofBuf, TRef.of, cast_eq,
      concatenate_pair, $ls,*]))

end Cert.HostWalk

end
-- ==== Proof.KerValue.lean ====
/-
  The kernel program's result as the network `kerNet` of its arguments.

  Before region 0 the host computes, from the edge list, the source and target index vectors, the reciprocal of the
  degree (at least one), and the neighbour sums of the input features times that reciprocal: the mean as a product.
  Region 0 turns the mean and the features into the first layer's output. Between the regions the host computes the
  same mean of that output, and region 1 turns both into the second layer's output and takes the log-softmax of each
  row. Reading the buffer contents back through the four segment boundaries gives the result array as `kerNet` of the
  gather / scatter-add chain, the degree and the eight arguments.
-/
import proofs.«114628_j37194416783909_1_alg».proof.Proof.KerBlocks
import proofs.«114628_j37194416783909_1_alg».proof.Proof.KerRun
import proofs.«114628_j37194416783909_1_alg».proof.Proof.HostChain
import proofs.«114628_j37194416783909_1_alg».proof.Proof.LibHostWalk
import proofs.«114628_j37194416783909_1_alg».proof.Proof.Gen.ReferenceIdeal

set_option maxRecDepth 16384

noncomputable section

namespace Cert.Sage

open Idealize.ShloMosaic Idealize.ShloMosaic.TcCoe Idealize.ShloMosaic.ValueIdx Idealize.ShloMosaic.StableHlo Cert.GraphConv Cert.HostWalk
open Idealize.SL.Sem

/-- The mean as the host multiplies it: the reciprocal of the degree, laid out as a column and repeated across the
    lanes, times the neighbour sums. -/
theorem meanMul_host {N K : Nat} (hN : N ≠ 1) (s : FVec Ideal ⟨2, ![N, K]⟩ .f32) (d : FVec Ideal ⟨1, ![N]⟩ .f32)
    (h0 : (⟨0, ![]⟩ : Shape).BroadcastsInDim ⟨1, ![N]⟩ ![])
    (h1 : (⟨1, ![N]⟩ : Shape).BroadcastsInDim ⟨2, ![N, 1]⟩ ![0])
    (h2 : (⟨2, ![N, 1]⟩ : Shape).BroadcastsInDim ⟨2, ![N, K]⟩ ![0, 1]) :
    mulf s (broadcastInDim ⟨2, ![N, K]⟩ ![0, 1] h2 (broadcastInDim ⟨2, ![N, 1]⟩ ![0] h1
      (Host.divf (broadcastInDim ⟨1, ![N]⟩ ![] h0 (constant (F := Ideal) ⟨0, ![]⟩ .f32 0x3F800000#32)) d)))
      = meanMul s d := by
  funext j
  obtain ⟨p, c, rfl⟩ : ∃ (p : Fin N) (c : Fin K), j = ix2 p c := ⟨j 0, j 1, eq_ix2 j⟩
  rw [mulf_apply, RowLayer.host_across hN _ h1 h2 p c]
  show s (ix2 p c) * Ideal.div (broadcastInDim ⟨1, ![N]⟩ ![] h0 (constant (F := Ideal) ⟨0, ![]⟩ .f32 0x3F800000#32) (ix1 p)) (d (ix1 p))
    = s (ix2 p c) * Ideal.div 1 (d (ix1 p))
  rw [Bcast.scalar_apply, constant_apply, Ideal.ofBits_one_f32]

open Cert.KernelIdeal Cert.KernelIdeal.Gen Cert.KernelIdeal.Facts₀ Cert.KernelIdeal.Facts

variable (m : (ℓ : Loc nD τ sig) → Buf (Elt Ideal) ℓ) (ρ : Dev nD → PrngReg)

/-- The edge list as launched. -/
abbrev eiOf (c : Dev nD) : IVec S2x800000 32 := m ((c : Thread nD τ).loc main_arg1)
/-- The input features as launched. -/
abbrev xOf (c : Dev nD) : FVec Ideal S50000x128 .f32 := m ((c : Thread nD τ).loc main_arg0)
/-- The neighbour sums of a feature matrix along the launched edge list. -/
abbrev aggOf (c : Dev nD) : FVec Ideal S50000x128 .f32 → FVec Ideal S50000x128 .f32 :=
  aggHost (srcIdx (eiOf m c)) (dstIdx (eiOf m c))
/-- The degree (at least one) along the launched edge list. -/
abbrev degOf (c : Dev nD) : FVec Ideal S50000 .f32 := degHost (dstIdx (eiOf m c))

/-! ## The first host stretch -/

theorem W1_v1 (c : Dev nD) : (W1 m ρ c (Proc.devRef .tc main_v1) : IVec S800000 32) = srcIdx (eiOf m c) := by
  dsimp only [W1, hostOps0]
  walk_back []
  rfl

theorem W1_v3 (c : Dev nD) : (W1 m ρ c (Proc.devRef .tc main_v3) : IVec S800000 32) = dstIdx (eiOf m c) := by
  dsimp only [W1, hostOps0]
  walk_back []
  rfl

/-- The reciprocal of the degree. -/
theorem W1_v11 (c : Dev nD) : (W1 m ρ c (Proc.devRef .tc main_v11) : FVec Ideal S50000 .f32)
    = Host.divf (broadcastInDim S50000 ![] Cert.KernelIdeal.Facts₀.bcast_S_S50000 (constant (F := Ideal) S_ .f32 0x3F800000#32)) (degOf m c) := by
  dsimp only [W1, hostOps0]
  walk_back []
  rfl

/-- The mean of the input features, as a product. -/
theorem W1_v24 (c : Dev nD) : (W1 m ρ c (Proc.devRef .tc main_v24) : FVec Ideal S50000x128 .f32)
    = meanMul (aggOf m c (xOf m c)) (degOf m c) := by
  dsimp only [W1, hostOps0]
  walk_back []
  show mulf (aggOf m c (xOf m c)) (broadcastInDim S50000x128 ![0, 1] _
      (broadcastInDim S50000x1 ![0] _
        (Host.divf (broadcastInDim S50000 ![] _ (constant (F := Ideal) S_ .f32 0x3F800000#32)) (degOf m c)))) = _
  exact meanMul_host (by decide) _ _ _ _ _

theorem W1_arg (c : Dev nD) :
    W1 m ρ c (Proc.devRef .tc main_arg0) = m ((c : Thread nD τ).loc main_arg0)
    ∧ W1 m ρ c (Proc.devRef .tc main_arg2) = m ((c : Thread nD τ).loc main_arg2)
    ∧ W1 m ρ c (Proc.devRef .tc main_arg3) = m ((c : Thread nD τ).loc main_arg3)
    ∧ W1 m ρ c (Proc.devRef .tc main_arg4) = m ((c : Thread nD τ).loc main_arg4)
    ∧ W1 m ρ c (Proc.devRef .tc main_arg5) = m ((c : Thread nD τ).loc main_arg5)
    ∧ W1 m ρ c (Proc.devRef .tc main_arg6) = m ((c : Thread nD τ).loc main_arg6)
    ∧ W1 m ρ c (Proc.devRef .tc main_arg7) = m ((c : Thread nD τ).loc main_arg7) := by
  refine ⟨?_, ?_, ?_, ?_, ?_, ?_, ?_⟩ <;> (dsimp only [W1, hostOps0]; walk_back [])

/-! ## Region 0 and what it leaves -/

/-- The first layer's output. -/
abbrev h0 (c : Dev nD) : Mat 50000 128 :=
  layer (meanMul (aggOf m c (xOf m c)) (degOf m c)) (xOf m c) (m ((c : Thread nD τ).loc main_arg2))
    (m ((c : Thread nD τ).loc main_arg3)) (m ((c : Thread nD τ).loc main_arg4))

theorem W2_v25 (c : Dev nD) : (W2 m ρ c (Proc.devRef .tc main_v25) : FVec Ideal S50000x128 .f32) = h0 m c := by
  refine (W2_arr m ρ c 5).trans ((final0 (V1 m ρ) c).trans ?_)
  obtain ⟨e0, e2, e3, e4, -, -, -⟩ := W1_arg m ρ c
  show layer (W1 m ρ c (Proc.devRef .tc main_v24)) (W1 m ρ c (Proc.devRef .tc main_arg0)) (W1 m ρ c (Proc.devRef .tc main_arg2))
    (W1 m ρ c (Proc.devRef .tc main_arg3)) (W1 m ρ c (Proc.devRef .tc main_arg4)) = _
  rw [W1_v24, e0, e2, e3, e4]

/-! ## The second host stretch -/

/-- The mean of the first layer's output, as a product. -/
theorem W3_v38 (c : Dev nD) : (W3 m ρ c (Proc.devRef .tc main_v38) : FVec Ideal S50000x128 .f32)
    = meanMul (aggOf m c (h0 m c)) (degOf m c) := by
  dsimp only [W3, hostOps1]
  walk_back []
  rw [W2_of_ne m ρ c main_v3 (by decide), W2_of_ne m ρ c main_v1 (by decide), W2_of_ne m ρ c main_v11 (by decide),
    W2_v25, W1_v1, W1_v3, W1_v11]
  show mulf (aggOf m c (h0 m c)) (broadcastInDim S50000x128 ![0, 1] _
      (broadcastInDim S50000x1 ![0] _
        (Host.divf (broadcastInDim S50000 ![] _ (constant (F := Ideal) S_ .f32 0x3F800000#32)) (degOf m c)))) = _
  exact meanMul_host (by decide) _ _ _ _ _

theorem W3_v25 (c : Dev nD) : (W3 m ρ c (Proc.devRef .tc main_v25) : FVec Ideal S50000x128 .f32) = h0 m c := by
  dsimp only [W3, hostOps1]
  walk_back []
  exact W2_v25 m ρ c

theorem W3_arg (c : Dev nD) :
    W3 m ρ c (Proc.devRef .tc main_arg5) = m ((c : Thread nD τ).loc main_arg5)
    ∧ W3 m ρ c (Proc.devRef .tc main_arg6) = m ((c : Thread nD τ).loc main_arg6)
    ∧ W3 m ρ c (Proc.devRef .tc main_arg7) = m ((c : Thread nD τ).loc main_arg7) := by
  obtain ⟨-, -, -, -, e5, e6, e7⟩ := W1_arg m ρ c
  refine ⟨?_, ?_, ?_⟩
  · dsimp only [W3, hostOps1]; walk_back []; exact (W2_of_ne m ρ c main_arg5 (by decide)).trans e5
  · dsimp only [W3, hostOps1]; walk_back []; exact (W2_of_ne m ρ c main_arg6 (by decide)).trans e6
  · dsimp only [W3, hostOps1]; walk_back []; exact (W2_of_ne m ρ c main_arg7 (by decide)).trans e7

/-! ## Region 1 and the result -/

/-- The result array after the last segment is the network of the arguments. -/
theorem W4_v39 (c : Dev nD) : (W4 m ρ c (Proc.devRef .tc main_v39) : FVec Ideal S50000x40 .f32)
    = kerNet (aggOf m c) (degOf m c) (xOf m c) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) := by
  refine (W4_arr m ρ c 5).trans ((final1 (V3 m ρ) c).trans ?_)
  obtain ⟨e5, e6, e7⟩ := W3_arg m ρ c
  show lsmK (layer (W3 m ρ c (Proc.devRef .tc main_v38)) (W3 m ρ c (Proc.devRef .tc main_v25)) (W3 m ρ c (Proc.devRef .tc main_arg5))
    (W3 m ρ c (Proc.devRef .tc main_arg6)) (W3 m ρ c (Proc.devRef .tc main_arg7))) = _
  rw [W3_v38, W3_v25, e5, e6, e7]
  rfl

/-- Every weakly fair execution of the kernel program terminates, nothing faulting, with the result array at the
    network of the arguments and the argument arrays as launched. -/
theorem kernel_run : θ_run (Cert.KernelIdeal.defs (F := Ideal)) (onTc (τ := τ) (Cert.KernelIdeal.main (F := Ideal))) ⟨m, fun _ => 0, ρ⟩
    (fun r => ∀ c : Dev nD,
      r.2.mem ((c.tc : Thread nD τ).loc main_v39)
        = kerNet (aggOf m c) (degOf m c) (xOf m c) (m ((c : Thread nD τ).loc main_arg2)) (m ((c : Thread nD τ).loc main_arg3))
            (m ((c : Thread nD τ).loc main_arg4)) (m ((c : Thread nD τ).loc main_arg5)) (m ((c : Thread nD τ).loc main_arg6))
            (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (Cert.KernelIdeal.defs (F := Ideal)) _ _).mono (fun r h c => ⟨(h c).1.trans (W4_v39 m ρ c), (h c).2⟩)
    (Cert.KernelIdeal.Out.run_out (F := Ideal) m ρ)

end Cert.Sage

end
-- ==== Proof.RefRun.lean ====
/-
  The reference program's run. @main is a straight line of 111 host tensor operations once its calls
  are unfolded: the two ELU functions (each with its two selects) and the row log-softmax are listed in place,
  over the buffers of the call's own record. Every weakly fair execution terminates, and each buffer then
  holds the fold of the operations' results over the launch contents.
-/
import proofs.«114628_j37194416783909_1_alg».proof.ReferenceIdeal
import Idealize.ShloMosaic.Lib.StableHlo.Run

noncomputable section

namespace Cert.Sage.RefRun

open Cert.ReferenceIdeal Cert.ReferenceIdeal.Facts₀ Cert.ReferenceIdeal.Facts
open Idealize.ShloMosaic Idealize.ShloMosaic.TcCoe Idealize.SL.Sem Idealize.ShloMosaic.StableHlo

variable [Cert.ReferenceIdeal.Facts]
variable {F : FTy → Type} [FloatOps F]

/-- @main's 111 operations in order, the calls unfolded: the edge list's two rows as index vectors, the
    wrapped source column, gather and scatter-add (the neighbour sums), the degree, the quotient, the two
    products with the bias between them, the ELU (a comparison, the select against zero, exp − 1, the product
    with one, the outer select); the same again for the second layer; then the row log-softmax. -/
abbrev ops : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_1 (constant S_ .f32 0x3F800000#32),
    StableHlo.unary main_cst_1 main_v14 (broadcastInDim S800000 ![] bcast_S_S800000 : (⟨S_, .f32⟩ : BufTy).Contents (Elt F) → (⟨S800000, .f32⟩ : BufTy).Contents (Elt F)),
    StableHlo.nullary main_cst_2 (constant S_ .f32 0x00000000#32),
    StableHlo.unary main_cst_2 main_v15 (broadcastInDim S50000 ![] bcast_S_S50000 : (⟨S_, .f32⟩ : BufTy).Contents (Elt F) → (⟨S50000, .f32⟩ : BufTy).Contents (Elt F)),
    StableHlo.unary main_v3 main_v16 (broadcastInDim S800000x1 ![0] bcast_S800000_S800000x1_0 : (⟨S800000, .i32⟩ : BufTy).Contents (Elt F) → (⟨S800000x1, .i32⟩ : BufTy).Contents (Elt F)),
    StableHlo.ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_3 (constant S_ .f32 0x3F800000#32),
    StableHlo.unary main_cst_3 main_v18 (broadcastInDim S50000 ![] bcast_S_S50000 : (⟨S_, .f32⟩ : BufTy).Contents (Elt F) → (⟨S50000, .f32⟩ : BufTy).Contents (Elt F)),
    StableHlo.binary main_v17 main_v18 main_v19 (maximumf : (⟨S50000, .f32⟩ : BufTy).Contents (Elt F) → (⟨S50000, .f32⟩ : BufTy).Contents (Elt F) → (⟨S50000, .f32⟩ : BufTy).Contents (Elt F)),
    StableHlo.unary main_v19 main_v20 (broadcastInDim S50000x1 ![0] bcast_S50000_S50000x1_0 : (⟨S50000, .f32⟩ : BufTy).Contents (Elt F) → (⟨S50000x1, .f32⟩ : BufTy).Contents (Elt F)),
    StableHlo.unary main_v20 main_v21 (broadcastInDim S50000x128 ![0, 1] bcast_S50000x1_S50000x128_0_1 : (⟨S50000x1, .f32⟩ : BufTy).Contents (Elt F) → (⟨S50000x128, .f32⟩ : BufTy).Contents (Elt F)),
    StableHlo.binary main_v13 main_v21 main_v22 (Host.divf : (⟨S50000x128, .f32⟩ : BufTy).Contents (Elt F) → (⟨S50000x128, .f32⟩ : BufTy).Contents (Elt F) → (⟨S50000x128, .f32⟩ : BufTy).Contents (Elt F)),
    StableHlo.binary main_v22 main_arg2 main_v23 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S50000x128 ![0, 1] bcast_S1x128_S50000x128_0_1 : (⟨S1x128, .f32⟩ : BufTy).Contents (Elt F) → (⟨S50000x128, .f32⟩ : BufTy).Contents (Elt F)),
    StableHlo.binary main_v23 main_v25 main_v26 (addf : (⟨S50000x128, .f32⟩ : BufTy).Contents (Elt F) → (⟨S50000x128, .f32⟩ : BufTy).Contents (Elt F) → (⟨S50000x128, .f32⟩ : BufTy).Contents (Elt F)),
    StableHlo.binary main_arg0 main_arg3 main_v27 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v26 main_v27 main_v28 (addf : (⟨S50000x128, .f32⟩ : BufTy).Contents (Elt F) → (⟨S50000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (.of main_v28 : StableHlo.TRef sig ⟨S50000x128, .f32⟩) main_call0.v0 main_call0.v1 (cmpf .ogt),
    StableHlo.TRef.nullary main_call0.cst_0 (constant S_ .f32 0x00000000#32),
    StableHlo.TRef.unary main_call0.cst_0 main_call0.v2 (broadcastInDim S50000x128 ![] bcast_S_S50000x128),
    StableHlo.TRef.binary (.of main_v28 : StableHlo.TRef sig ⟨S50000x128, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S50000x128 ![] bcast_S_S50000x128),
    StableHlo.TRef.ternary main_call0.v3 main_call0.call0.v1 (.of main_v28 : StableHlo.TRef sig ⟨S50000x128, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S50000x128 ![] bcast_S_S50000x128),
    StableHlo.TRef.binary main_call0.v6 main_call0.v5 main_call0.v7 mulf,
    StableHlo.TRef.ternary main_call0.v1 (.of main_v28 : StableHlo.TRef sig ⟨S50000x128, .f32⟩) main_call0.v7 main_call0.call1.v0 select,
    StableHlo.nullary main_c_4 (constantI S_ 32 0#32),
    StableHlo.unary main_c_4 main_v30 (broadcastInDim S800000 ![] bcast_S_S800000 : (⟨S_, .i32⟩ : BufTy).Contents (Elt F) → (⟨S800000, .i32⟩ : BufTy).Contents (Elt F)),
    StableHlo.binary main_v1 main_v30 main_v31 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 50000#32),
    StableHlo.unary main_c_5 main_v32 (broadcastInDim S800000 ![] bcast_S_S800000 : (⟨S_, .i32⟩ : BufTy).Contents (Elt F) → (⟨S800000, .i32⟩ : BufTy).Contents (Elt F)),
    StableHlo.binary main_v1 main_v32 main_v33 (addi : (⟨S800000, .i32⟩ : BufTy).Contents (Elt F) → (⟨S800000, .i32⟩ : BufTy).Contents (Elt F) → (⟨S800000, .i32⟩ : BufTy).Contents (Elt F)),
    StableHlo.ternary main_v31 main_v33 main_v1 main_v34 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v34 main_v35 (broadcastInDim S800000x1 ![0] bcast_S800000_S800000x1_0 : (⟨S800000, .i32⟩ : BufTy).Contents (Elt F) → (⟨S800000x1, .i32⟩ : BufTy).Contents (Elt F)),
    StableHlo.binary main_v29 main_v35 main_v36 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_6 (constant S_ .f32 0x00000000#32),
    StableHlo.unary main_cst_6 main_v37 (broadcastInDim S50000x128 ![] bcast_S_S50000x128 : (⟨S_, .f32⟩ : BufTy).Contents (Elt F) → (⟨S50000x128, .f32⟩ : BufTy).Contents (Elt F)),
    StableHlo.unary main_v3 main_v38 (broadcastInDim S800000x1 ![0] bcast_S800000_S800000x1_0 : (⟨S800000, .i32⟩ : BufTy).Contents (Elt F) → (⟨S800000x1, .i32⟩ : BufTy).Contents (Elt F)),
    StableHlo.ternary main_v37 main_v38 main_v36 main_v39 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_7 (constant S_ .f32 0x3F800000#32),
    StableHlo.unary main_cst_7 main_v40 (broadcastInDim S800000 ![] bcast_S_S800000 : (⟨S_, .f32⟩ : BufTy).Contents (Elt F) → (⟨S800000, .f32⟩ : BufTy).Contents (Elt F)),
    StableHlo.nullary main_cst_8 (constant S_ .f32 0x00000000#32),
    StableHlo.unary main_cst_8 main_v41 (broadcastInDim S50000 ![] bcast_S_S50000 : (⟨S_, .f32⟩ : BufTy).Contents (Elt F) → (⟨S50000, .f32⟩ : BufTy).Contents (Elt F)),
    StableHlo.unary main_v3 main_v42 (broadcastInDim S800000x1 ![0] bcast_S800000_S800000x1_0 : (⟨S800000, .i32⟩ : BufTy).Contents (Elt F) → (⟨S800000x1, .i32⟩ : BufTy).Contents (Elt F)),
    StableHlo.ternary main_v41 main_v42 main_v40 main_v43 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_9 (constant S_ .f32 0x3F800000#32),
    StableHlo.unary main_cst_9 main_v44 (broadcastInDim S50000 ![] bcast_S_S50000 : (⟨S_, .f32⟩ : BufTy).Contents (Elt F) → (⟨S50000, .f32⟩ : BufTy).Contents (Elt F)),
    StableHlo.binary main_v43 main_v44 main_v45 (maximumf : (⟨S50000, .f32⟩ : BufTy).Contents (Elt F) → (⟨S50000, .f32⟩ : BufTy).Contents (Elt F) → (⟨S50000, .f32⟩ : BufTy).Contents (Elt F)),
    StableHlo.unary main_v45 main_v46 (broadcastInDim S50000x1 ![0] bcast_S50000_S50000x1_0 : (⟨S50000, .f32⟩ : BufTy).Contents (Elt F) → (⟨S50000x1, .f32⟩ : BufTy).Contents (Elt F)),
    StableHlo.unary main_v46 main_v47 (broadcastInDim S50000x128 ![0, 1] bcast_S50000x1_S50000x128_0_1 : (⟨S50000x1, .f32⟩ : BufTy).Contents (Elt F) → (⟨S50000x128, .f32⟩ : BufTy).Contents (Elt F)),
    StableHlo.binary main_v39 main_v47 main_v48 (Host.divf : (⟨S50000x128, .f32⟩ : BufTy).Contents (Elt F) → (⟨S50000x128, .f32⟩ : BufTy).Contents (Elt F) → (⟨S50000x128, .f32⟩ : BufTy).Contents (Elt F)),
    StableHlo.binary main_v48 main_arg5 main_v49 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    StableHlo.unary main_arg7 main_v50 (broadcastInDim S1x40 ![1] bcast_S40_S1x40_1 : (⟨S40, .f32⟩ : BufTy).Contents (Elt F) → (⟨S1x40, .f32⟩ : BufTy).Contents (Elt F)),
    StableHlo.unary main_v50 main_v51 (broadcastInDim S50000x40 ![0, 1] bcast_S1x40_S50000x40_0_1 : (⟨S1x40, .f32⟩ : BufTy).Contents (Elt F) → (⟨S50000x40, .f32⟩ : BufTy).Contents (Elt F)),
    StableHlo.binary main_v49 main_v51 main_v52 (addf : (⟨S50000x40, .f32⟩ : BufTy).Contents (Elt F) → (⟨S50000x40, .f32⟩ : BufTy).Contents (Elt F) → (⟨S50000x40, .f32⟩ : BufTy).Contents (Elt F)),
    StableHlo.binary main_v29 main_arg6 main_v53 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    StableHlo.binary main_v52 main_v53 main_v54 (addf : (⟨S50000x40, .f32⟩ : BufTy).Contents (Elt F) → (⟨S50000x40, .f32⟩ : BufTy).Contents (Elt F) → (⟨S50000x40, .f32⟩ : BufTy).Contents (Elt F)),
    StableHlo.TRef.nullary main_call1.cst (constant S_ .f32 0x00000000#32),
    StableHlo.TRef.unary main_call1.cst main_call1.v0 (broadcastInDim S50000x40 ![] bcast_S_S50000x40),
    StableHlo.TRef.binary (.of main_v54 : StableHlo.TRef sig ⟨S50000x40, .f32⟩) main_call1.v0 main_call1.v1 (cmpf .ogt),
    StableHlo.TRef.nullary main_call1.cst_0 (constant S_ .f32 0x00000000#32),
    StableHlo.TRef.unary main_call1.cst_0 main_call1.v2 (broadcastInDim S50000x40 ![] bcast_S_S50000x40),
    StableHlo.TRef.binary (.of main_v54 : StableHlo.TRef sig ⟨S50000x40, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S50000x40 ![] bcast_S_S50000x40),
    StableHlo.TRef.ternary main_call1.v3 main_call1.call0.v1 (.of main_v54 : StableHlo.TRef sig ⟨S50000x40, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S50000x40 ![] bcast_S_S50000x40),
    StableHlo.TRef.binary main_call1.v6 main_call1.v5 main_call1.v7 mulf,
    StableHlo.TRef.ternary main_call1.v1 (.of main_v54 : StableHlo.TRef sig ⟨S50000x40, .f32⟩) main_call1.v7 main_call1.call1.v0 select,
    StableHlo.TRef.nullary main_call2.cst (constant S_ .f32 0xFF800000#32),
    StableHlo.TRef.binary (.of main_v55 : StableHlo.TRef sig ⟨S50000x40, .f32⟩) main_call2.cst main_call2.v0 (fun x v => Host.reduce FloatOps.maximumf x v reducesTo_S50000x40_S50000_d1 h_S_),
    StableHlo.TRef.nullary main_call2.cst_0 (constant S_ .f32 0xFF800000#32),
    StableHlo.TRef.unary main_call2.cst_0 main_call2.v1 (broadcastInDim S50000 ![] bcast_S_S50000),
    StableHlo.TRef.binary main_call2.v1 main_call2.v0 main_call2.v2 maximumf,
    StableHlo.TRef.unary main_call2.v2 main_call2.v3 (broadcastInDim S50000x1 ![0] bcast_S50000_S50000x1_0),
    StableHlo.TRef.unary main_call2.v3 main_call2.v4 (broadcastInDim S50000x40 ![0, 1] bcast_S50000x1_S50000x40_0_1),
    StableHlo.TRef.binary (.of main_v55 : StableHlo.TRef sig ⟨S50000x40, .f32⟩) main_call2.v4 main_call2.v5 subf,
    StableHlo.TRef.unary main_call2.v5 main_call2.v6 Host.exp,
    StableHlo.TRef.nullary main_call2.cst_1 (constant S_ .f32 0x00000000#32),
    StableHlo.TRef.binary main_call2.v6 main_call2.cst_1 main_call2.v7 (fun x v => Host.reduceAdd x v reducesTo_S50000x40_S50000_d1 h_S_),
    StableHlo.TRef.unary main_call2.v7 main_call2.v8 (broadcastInDim S50000x1 ![0] bcast_S50000_S50000x1_0),
    StableHlo.TRef.unary main_call2.v8 main_call2.v9 Host.log,
    StableHlo.TRef.unary main_call2.v9 main_call2.v10 (broadcastInDim S50000x40 ![0, 1] bcast_S50000x1_S50000x40_0_1),
    StableHlo.TRef.binary main_call2.v5 main_call2.v10 main_call2.v11 subf ]

set_option maxRecDepth 65536 in
set_option maxHeartbeats 4000000 in
/-- @main is that straight line: the functions unfolded at their calls, sequencing reassociated. -/
theorem main_eq (c : Dev nD) : main (F := F) c = seq ops := by
  simp only [main, main_part0, main_part1, fn_elu.body, fn_where.body, fn_where_0.body, fn_elu_1.body,
    fn_where_2.body, fn_where_3.body, fn_log_softmax.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 65536 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., binary_bufs_sub ..,
    unary_bufs_sub .., unary_bufs_sub .., binary_bufs_sub .., binary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., nullary_bufs_sub .., unary_bufs_sub .., nullary_bufs_sub ..,
    unary_bufs_sub .., unary_bufs_sub .., ternary_bufs_sub .., nullary_bufs_sub .., unary_bufs_sub .., binary_bufs_sub ..,
    unary_bufs_sub .., unary_bufs_sub .., binary_bufs_sub .., binary_bufs_sub .., unary_bufs_sub .., unary_bufs_sub ..,
    binary_bufs_sub .., binary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub ..⟩

set_option maxRecDepth 65536 in
set_option maxHeartbeats 4000000 in
/-- From any memory with zero counters every weakly fair execution of @main terminates, and each buffer of each
    device then holds the operations' fold over that device's launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after ops (StableHlo.launchContents m c) (Proc.devRef .tc b) :=
  run_seq scopedRefs_eq scopedSems_eq defs main (fun _ => ops) main_eq (fun _ => ops_sub) m ρ

end Cert.Sage.RefRun

end
-- ==== Proof.RefLemmas.lean ====
/-
  The host's spellings of the three whole-array steps of the network, on the extended reals.

  * The mean as a quotient: the feature matrix divided, entry by entry, by the degree vector laid out as a column
    and repeated across the columns, is `meanDiv`: at (p, c) the repeated column holds the degree of node p.
  * One layer: the host adds the bias to the first product before it adds the second product, and spells ELU as
    select (u > 0) u (1 · expm1 (select (u > 0) 0 u)). Addition of extended reals is commutative and associative, so
    (A + b) + B = (A + B) + b, and the two ELU spellings agree at every extended real; entry by entry the result is
    ELU of a · wl + x · wr + b, which is `layer`.
  * The log-softmax along the rows, entry by entry the row's `logSoftmax`, is `lsm`.
  Any extents; no program.
-/
import proofs.«114628_j37194416783909_1_alg».proof.Proof.Spec
import proofs.«114628_j37194416783909_1_alg».proof.Proof.LibPlainDot
import proofs.«114628_j37194416783909_1_alg».proof.Proof.LibGraphConv
import proofs.«114628_j37194416783909_1_alg».proof.Proof.LibElu
import proofs.«114628_j37194416783909_1_alg».proof.Proof.LibRowLogSoftmax
import proofs.«114628_j37194416783909_1_alg».proof.Proof.LibRowLayer
import proofs.«114628_j37194416783909_1_alg».proof.Proof.LibBroadcast

noncomputable section

open scoped BigOperators

namespace Cert.Sage

open Idealize.ShloMosaic Idealize.ShloMosaic.ValueIdx Cert.GraphConv

/-- The quotient by the degree laid out as a column and repeated across the columns is `meanDiv`. -/
theorem meanDiv_host {M K : Nat} (hM : M ≠ 1) (s : FVec Ideal ⟨2, ![M, K]⟩ .f32) (d : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, K]⟩ ![0, 1]) :
    Host.divf s (broadcastInDim ⟨2, ![M, K]⟩ ![0, 1] h2 (broadcastInDim ⟨2, ![M, 1]⟩ ![0] h1 d)) = meanDiv s d := by
  funext j
  obtain ⟨p, c, rfl⟩ : ∃ (p : Fin M) (c : Fin K), j = ix2 p c := ⟨j 0, j 1, eq_ix2 j⟩
  show Ideal.div (s (ix2 p c)) (broadcastInDim ⟨2, ![M, K]⟩ ![0, 1] h2 (broadcastInDim ⟨2, ![M, 1]⟩ ![0] h1 d) (ix2 p c))
    = Ideal.div (s (ix2 p c)) (d (ix1 p))
  rw [Cert.RowLayer.host_across hM d h1 h2 p c]

/-- The host's sum (a · wl + b) + x · wr, at one entry, is the convolution layer's entry. -/
theorem preact_host {M K N : Nat} {d : DotDims ⟨2, ![M, K]⟩ ⟨2, ![K, N]⟩ ⟨2, ![M, N]⟩} (hd : Cert.PlainDot.IsPlain d)
    (prec : Option ContractPrecision) (a x : FVec Ideal ⟨2, ![M, K]⟩ .f32) (wl wr : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (addf (Host.dotGeneral d prec a wl)
        (broadcastInDim ⟨2, ![M, N]⟩ ![0, 1] h2 (broadcastInDim ⟨2, ![1, N]⟩ ![1] h1 b))) (Host.dotGeneral d prec x wr)
      = conv a x wl wr (row b) := by
  funext j
  obtain ⟨r, c, rfl⟩ : ∃ (r : Fin M) (c : Fin N), j = ix2 r c := ⟨j 0, j 1, eq_ix2 j⟩
  rw [addf_apply, addf_apply, Cert.PlainDot.dotGeneral_apply hd, Cert.PlainDot.dotGeneral_apply hd, rows_apply,
    bcast_row, conv_apply, add_right_comm]

/-- The host's ELU of a whole array, as printed (two comparisons with a zero splat, the inner select against a zero splat
    of a converted constant, `expm1`, the product with a one splat, the outer select), is ELU entry by entry. -/
theorem elu_host {M N : Nat} (h0 : (⟨0, ![]⟩ : Shape).BroadcastsInDim ⟨2, ![M, N]⟩ ![])
    (p : FVec Ideal ⟨2, ![M, N]⟩ .f32) :
    select (cmpf .ogt p (broadcastInDim ⟨2, ![M, N]⟩ ![] h0 (constant (F := Ideal) ⟨0, ![]⟩ .f32 0x00000000#32))) p
        (mulf (broadcastInDim ⟨2, ![M, N]⟩ ![] h0 (constant (F := Ideal) ⟨0, ![]⟩ .f32 0x3F800000#32))
          (Host.expm1 (select (cmpf .ogt p (broadcastInDim ⟨2, ![M, N]⟩ ![] h0 (constant (F := Ideal) ⟨0, ![]⟩ .f32 0x00000000#32)))
            (broadcastInDim ⟨2, ![M, N]⟩ ![] h0 (id (constant (F := Ideal) ⟨0, ![]⟩ .f32 0x00000000#32))) p)))
      = fun j => Cert.Elu.eluS (p j) := by
  funext j
  have e0 : broadcastInDim ⟨2, ![M, N]⟩ ![] h0 (constant (F := Ideal) ⟨0, ![]⟩ .f32 0x00000000#32) j
      = FloatOps.ofBits (F := Ideal) .f32 0x00000000#32 := Cert.Bcast.scalar_apply _ h0 j
  have e0' : broadcastInDim ⟨2, ![M, N]⟩ ![] h0 (id (constant (F := Ideal) ⟨0, ![]⟩ .f32 0x00000000#32)) j
      = FloatOps.ofBits (F := Ideal) .f32 0x00000000#32 := e0
  have e1 : broadcastInDim ⟨2, ![M, N]⟩ ![] h0 (constant (F := Ideal) ⟨0, ![]⟩ .f32 0x3F800000#32) j
      = FloatOps.ofBits (F := Ideal) .f32 0x3F800000#32 := Cert.Bcast.scalar_apply _ h0 j
  show Scalar.select (FloatOps.cmpf .ogt (p j) _) (p j)
      (FloatOps.mulf _ (FloatOps.hostUnary .expm1 (Scalar.select (FloatOps.cmpf .ogt (p j) _) _ (p j)))) = _
  rw [e0, e0', e1]
  exact Cert.Elu.eluHostS_eq (p j)

/-- One layer as the host computes it: its ELU of (a · wl + b) + x · wr. -/
theorem layer_host {M K N : Nat} {d : DotDims ⟨2, ![M, K]⟩ ⟨2, ![K, N]⟩ ⟨2, ![M, N]⟩} (hd : Cert.PlainDot.IsPlain d)
    (prec : Option ContractPrecision) (a x : FVec Ideal ⟨2, ![M, K]⟩ .f32) (wl wr : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (p : FVec Ideal ⟨2, ![M, N]⟩ .f32)
    (hp : p = addf (addf (Host.dotGeneral d prec a wl)
      (broadcastInDim ⟨2, ![M, N]⟩ ![0, 1] h2 (broadcastInDim ⟨2, ![1, N]⟩ ![1] h1 b))) (Host.dotGeneral d prec x wr)) :
    select (cmpf .ogt p (broadcastInDim ⟨2, ![M, N]⟩ ![] h0 (constant (F := Ideal) ⟨0, ![]⟩ .f32 0x00000000#32))) p
        (mulf (broadcastInDim ⟨2, ![M, N]⟩ ![] h0 (constant (F := Ideal) ⟨0, ![]⟩ .f32 0x3F800000#32))
          (Host.expm1 (select (cmpf .ogt p (broadcastInDim ⟨2, ![M, N]⟩ ![] h0 (constant (F := Ideal) ⟨0, ![]⟩ .f32 0x00000000#32)))
            (broadcastInDim ⟨2, ![M, N]⟩ ![] h0 (id (constant (F := Ideal) ⟨0, ![]⟩ .f32 0x00000000#32))) p)))
      = layer a x wl wr b := by
  rw [elu_host h0 p, hp, preact_host hd prec a x wl wr b h1 h2]
  rfl

/-- The same without the conversion of the inner select's constant. -/
theorem layer_host' {M K N : Nat} {d : DotDims ⟨2, ![M, K]⟩ ⟨2, ![K, N]⟩ ⟨2, ![M, N]⟩} (hd : Cert.PlainDot.IsPlain d)
    (prec : Option ContractPrecision) (a x : FVec Ideal ⟨2, ![M, K]⟩ .f32) (wl wr : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (p : FVec Ideal ⟨2, ![M, N]⟩ .f32)
    (hp : p = addf (addf (Host.dotGeneral d prec a wl)
      (broadcastInDim ⟨2, ![M, N]⟩ ![0, 1] h2 (broadcastInDim ⟨2, ![1, N]⟩ ![1] h1 b))) (Host.dotGeneral d prec x wr)) :
    select (cmpf .ogt p (broadcastInDim ⟨2, ![M, N]⟩ ![] h0 (constant (F := Ideal) ⟨0, ![]⟩ .f32 0x00000000#32))) p
        (mulf (broadcastInDim ⟨2, ![M, N]⟩ ![] h0 (constant (F := Ideal) ⟨0, ![]⟩ .f32 0x3F800000#32))
          (Host.expm1 (select (cmpf .ogt p (broadcastInDim ⟨2, ![M, N]⟩ ![] h0 (constant (F := Ideal) ⟨0, ![]⟩ .f32 0x00000000#32)))
            (broadcastInDim ⟨2, ![M, N]⟩ ![] h0 (constant (F := Ideal) ⟨0, ![]⟩ .f32 0x00000000#32)) p)))
      = layer a x wl wr b :=
  layer_host hd prec a x wl wr b h1 h2 h0 p hp

/-- The host's log-softmax along the rows is `lsm`. -/
theorem lsm_host {R C : Nat} (hR : R ≠ 1) (lg : FVec Ideal ⟨2, ![R, C]⟩ .f32)
    (h' : (⟨2, ![R, C]⟩ : Shape).ReducesTo [1] ⟨1, ![R]⟩) (hu : 0 < (⟨0, ![]⟩ : Shape).numel)
    (h0 : (⟨0, ![]⟩ : Shape).BroadcastsInDim ⟨1, ![R]⟩ ![])
    (h1 : (⟨1, ![R]⟩ : Shape).BroadcastsInDim ⟨2, ![R, 1]⟩ ![0])
    (h2 : (⟨2, ![R, 1]⟩ : Shape).BroadcastsInDim ⟨2, ![R, C]⟩ ![0, 1]) :
    subf (RowLogSoftmax.hostShift lg h' hu h0 h1 h2)
        (broadcastInDim ⟨2, ![R, C]⟩ ![0, 1] h2 (Host.log (broadcastInDim ⟨2, ![R, 1]⟩ ![0] h1
          (Host.reduceAdd (Host.exp (RowLogSoftmax.hostShift lg h' hu h0 h1 h2))
            (constant (F := Ideal) ⟨0, ![]⟩ .f32 0x00000000#32) h' hu))))
      = lsm lg := by
  funext j
  obtain ⟨p, c, rfl⟩ : ∃ (p : Fin R) (c : Fin C), j = ix2 p c := ⟨j 0, j 1, eq_ix2 j⟩
  exact RowLogSoftmax.host_logSoftmax lg h' hu h0 h1 h2 hR p c

end Cert.Sage

end
-- ==== Proof.RefValue.lean ====
/-
  The value the reference program computes. Its result buffer, read back through the straight line of host
  operations, is the two-layer neighbourhood-mean network of the specification: the edge list's two rows are
  the source and target index vectors, a gather at the wrapped sources scatter-added at the targets is the
  neighbour sum, ones scatter-added at the targets (at least one) is the degree, the quotient by the degree
  repeated across the columns is the mean, each layer is ELU of mean · wl + b + x · wr, and the last step is the
  log-softmax along the rows. The argument buffers are written by no operation and keep their contents.
-/
import proofs.«114628_j37194416783909_1_alg».proof.Proof.RefRun
import proofs.«114628_j37194416783909_1_alg».proof.Proof.Spec
import proofs.«114628_j37194416783909_1_alg».proof.Proof.HostChain
import proofs.«114628_j37194416783909_1_alg».proof.Proof.RefLemmas
import proofs.«114628_j37194416783909_1_alg».proof.Proof.LibHostWalk
import proofs.«114628_j37194416783909_1_alg».proof.Proof.LibPlainDot

set_option maxRecDepth 16384

noncomputable section

namespace Cert.Sage.RefValue

open Cert.ReferenceIdeal Cert.ReferenceIdeal.Facts₀ Cert.ReferenceIdeal.Facts
open Idealize.ShloMosaic Idealize.ShloMosaic.TcCoe Idealize.SL.Sem Idealize.ShloMosaic.StableHlo
open Idealize.ShloMosaic.ValueIdx Cert.HostWalk Cert.GraphConv

variable [Cert.ReferenceIdeal.Facts]

/-! ## The two products are plain matrix products -/

theorem plain128 : Cert.PlainDot.IsPlain dot_S50000x128_S128x128_S50000x128_1_0_0_1_n_n := ⟨rfl, rfl, rfl, rfl, rfl, rfl⟩
theorem plain40 : Cert.PlainDot.IsPlain dot_S50000x128_S128x40_S50000x40_1_0_0_1_n_n := ⟨rfl, rfl, rfl, rfl, rfl, rfl⟩

/-! ## The edge list's rows, the neighbour sums and the degree, as the program spells them -/

theorem srcIdx_fold (ei : IVec S2x800000 32) :
    (fun i => shapeCast main_v1.ty.shape (extractStridedSlice S1x800000 ![0, 0] ei slices_S2x800000_S1x800000_0_0)
      shapeCasts_S1x800000_S800000 i) = srcIdx ei := rfl

theorem dstIdx_fold (ei : IVec S2x800000 32) :
    (fun i => shapeCast main_v3.ty.shape (extractStridedSlice S1x800000 ![1, 0] ei slices_S2x800000_S1x800000_1_0)
      shapeCasts_S1x800000_S800000 i) = dstIdx ei := rfl

theorem aggHost_fold (v1 v3 : IVec S800000 32) (f : FVec Ideal S50000x128 .f32) :
    Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 v3)
      (Host.gather gather_S50000x128_S800000x1_S800000x128_1_0_n_n_0_1_1128 f
        (broadcastInDim S800000x1 ![0] bcast_S800000_S800000x1_0
          (select (cmpi .slt v1 (broadcastInDim S800000 ![] bcast_S_S800000 (constantI S_ 32 0#32)))
            (addi v1 (broadcastInDim S800000 ![] bcast_S_S800000 (constantI S_ 32 50000#32))) v1)))
      = aggHost v1 v3 f := rfl

theorem degHost_fold (v3 : IVec S800000 32) :
    maximumf
      (Host.scatterAdd scatter_S50000_S800000x1_S800000_n_0_0_1
        (broadcastInDim S50000 ![] bcast_S_S50000 (constant (F := Ideal) S_ .f32 0x00000000#32))
        (broadcastInDim S800000x1 ![0] bcast_S800000_S800000x1_0 v3)
        (broadcastInDim S800000 ![] bcast_S_S800000 (constant (F := Ideal) S_ .f32 0x3F800000#32)))
      (broadcastInDim S50000 ![] bcast_S_S50000 (constant (F := Ideal) S_ .f32 0x3F800000#32))
      = degHost v3 := rfl

/-! ## The result buffer -/

set_option maxHeartbeats 4000000 in
/-- The result buffer after the line of operations, from any contents: the network of the specification over the
    contents of the eight argument buffers. Composed along the line, the result is the row log-softmax of the
    second layer; each layer is ELU of (mean · wl + b) + x · wr, the mean the neighbour sums divided by the degree
    repeated across the columns; the neighbour sums and the degree are the host chain's over the edge list's two
    rows, which the line reads as a slice of one row reshaped to a vector. -/
theorem value (V : Valuation τ sig (Elt Ideal)) :
    after (Cert.Sage.RefRun.ops (F := Ideal)) V (Proc.devRef .tc main_v56)
      = (refNet (N := 50000) (K := 128) (C := 40)
          (aggHost (srcIdx (V (Proc.devRef .tc main_arg1))) (dstIdx (V (Proc.devRef .tc main_arg1))))
          (degHost (dstIdx (V (Proc.devRef .tc main_arg1))))
          (V (Proc.devRef .tc main_arg0)) (V (Proc.devRef .tc main_arg2)) (V (Proc.devRef .tc main_arg3))
          (V (Proc.devRef .tc main_arg4)) (V (Proc.devRef .tc main_arg5)) (V (Proc.devRef .tc main_arg6))
          (V (Proc.devRef .tc main_arg7)) : FVec Ideal S50000x40 .f32) := by
  walk_back [meanDiv_host (M := 50000) (K := 128) (by decide),
    layer_host (M := 50000) (K := 128) (N := 128) plain128 none _ _ _ _ _ _ _ _ _ rfl,
    layer_host (M := 50000) (K := 128) (N := 40) plain40 none _ _ _ _ _ _ _ _ _ rfl,
    lsm_host (R := 50000) (C := 40) (by decide), refNet]
  rw [degHost_fold, aggHost_fold, aggHost_fold]
  rfl

/-! ## The argument buffers -/

theorem keep_arg0 (V : Valuation τ sig (Elt Ideal)) :
    after (Cert.Sage.RefRun.ops (F := Ideal)) V (Proc.devRef .tc main_arg0) = V (Proc.devRef .tc main_arg0) := by
  walk_back []

theorem keep_arg1 (V : Valuation τ sig (Elt Ideal)) :
    after (Cert.Sage.RefRun.ops (F := Ideal)) V (Proc.devRef .tc main_arg1) = V (Proc.devRef .tc main_arg1) := by
  walk_back []

theorem keep_arg2 (V : Valuation τ sig (Elt Ideal)) :
    after (Cert.Sage.RefRun.ops (F := Ideal)) V (Proc.devRef .tc main_arg2) = V (Proc.devRef .tc main_arg2) := by
  walk_back []

theorem keep_arg3 (V : Valuation τ sig (Elt Ideal)) :
    after (Cert.Sage.RefRun.ops (F := Ideal)) V (Proc.devRef .tc main_arg3) = V (Proc.devRef .tc main_arg3) := by
  walk_back []

theorem keep_arg4 (V : Valuation τ sig (Elt Ideal)) :
    after (Cert.Sage.RefRun.ops (F := Ideal)) V (Proc.devRef .tc main_arg4) = V (Proc.devRef .tc main_arg4) := by
  walk_back []

theorem keep_arg5 (V : Valuation τ sig (Elt Ideal)) :
    after (Cert.Sage.RefRun.ops (F := Ideal)) V (Proc.devRef .tc main_arg5) = V (Proc.devRef .tc main_arg5) := by
  walk_back []

theorem keep_arg6 (V : Valuation τ sig (Elt Ideal)) :
    after (Cert.Sage.RefRun.ops (F := Ideal)) V (Proc.devRef .tc main_arg6) = V (Proc.devRef .tc main_arg6) := by
  walk_back []

theorem keep_arg7 (V : Valuation τ sig (Elt Ideal)) :
    after (Cert.Sage.RefRun.ops (F := Ideal)) V (Proc.devRef .tc main_arg7) = V (Proc.devRef .tc main_arg7) := by
  walk_back []

/-! ## The run -/

/-- From any memory with zero counters every weakly fair execution of the reference program terminates with the
    result buffer at the network of the specification over the launch contents of the argument buffers, and the
    argument buffers unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread nD τ).loc main_v56)
            = (Cert.Sage.refNet (N := 50000) (K := 128) (C := 40)
                (Cert.Sage.aggHost (Cert.Sage.srcIdx (m ((c.tc : Thread nD τ).loc main_arg1))) (Cert.Sage.dstIdx (m ((c.tc : Thread nD τ).loc main_arg1))))
                (Cert.Sage.degHost (Cert.Sage.dstIdx (m ((c.tc : Thread nD τ).loc main_arg1))))
                (m ((c.tc : Thread nD τ).loc main_arg0)) (m ((c.tc : Thread nD τ).loc main_arg2)) (m ((c.tc : Thread nD τ).loc main_arg3)) (m ((c.tc : Thread nD τ).loc main_arg4))
                (m ((c.tc : Thread nD τ).loc main_arg5)) (m ((c.tc : Thread nD τ).loc main_arg6)) (m ((c.tc : Thread nD τ).loc main_arg7)) : FVec Ideal S50000x40 .f32)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)) :=
  (θ_run defs _ _).mono (fun _ h c => ⟨(h c main_v56).trans (value (launchContents m c)),
      (h c main_arg0).trans (keep_arg0 (launchContents m c)),
      (h c main_arg1).trans (keep_arg1 (launchContents m c)),
      (h c main_arg2).trans (keep_arg2 (launchContents m c)),
      (h c main_arg3).trans (keep_arg3 (launchContents m c)),
      (h c main_arg4).trans (keep_arg4 (launchContents m c)),
      (h c main_arg5).trans (keep_arg5 (launchContents m c)),
      (h c main_arg6).trans (keep_arg6 (launchContents m c)),
      (h c main_arg7).trans (keep_arg7 (launchContents m c))⟩)
    (Cert.Sage.RefRun.run_all m ρ)

end Cert.Sage.RefValue

end
-- ==== Proof.LibRealSum.lean ====
/-
  Real numbers inside the extended reals: they are closed under sums, products, maxima and finite sums,
  and on them a weighted sum of matrix-vector products may be exchanged with the matrix-vector product of
  the weighted sums. A sum over 136 consecutive coordinates is also split into blocks of 64, 64 and 8.
-/
import Idealize.ShloMosaic.PureOps.Ideal

noncomputable section

namespace Cert.RealSum

/-- An extended real that is a real number. -/
def IsReal (x : EReal) : Prop := ∃ r : ℝ, x = (r : EReal)

/-- Zero is a real number. -/
theorem isReal_zero : IsReal 0 := ⟨0, EReal.coe_zero.symm⟩

/-- The image of a real number in the extended reals is a real number. -/
theorem isReal_coe (r : ℝ) : IsReal (r : EReal) := ⟨r, rfl⟩

/-- The sum of two real numbers is a real number. -/
theorem IsReal.add {x y : EReal} (hx : IsReal x) (hy : IsReal y) : IsReal (x + y) := by
  obtain ⟨p, rfl⟩ := hx
  obtain ⟨q, rfl⟩ := hy
  exact ⟨p + q, (EReal.coe_add p q).symm⟩

/-- The product of two real numbers is a real number. -/
theorem IsReal.mul {x y : EReal} (hx : IsReal x) (hy : IsReal y) : IsReal (x * y) := by
  obtain ⟨p, rfl⟩ := hx
  obtain ⟨q, rfl⟩ := hy
  exact ⟨p * q, (EReal.coe_mul p q).symm⟩

/-- The larger of two real numbers is a real number, because it is one of the two. -/
theorem IsReal.max {x y : EReal} (hx : IsReal x) (hy : IsReal y) : IsReal (max x y) := by
  rcases max_choice x y with h | h
  · rw [h]; exact hx
  · rw [h]; exact hy

/-- A finite sum of real numbers is a real number. -/
theorem isReal_sum {ι : Type} (s : Finset ι) (f : ι → EReal) (h : ∀ e ∈ s, IsReal (f e)) :
    IsReal (∑ e ∈ s, f e) :=
  Finset.sum_induction f IsReal (fun _ _ hx hy => hx.add hy) isReal_zero h

/-- An extended real that is neither plus nor minus infinity is a real number. -/
theorem isReal_of_ne_top_of_ne_bot {x : EReal} (ht : x ≠ ⊤) (hb : x ≠ ⊥) : IsReal x :=
  ⟨x.toReal, (EReal.coe_toReal ht hb).symm⟩

/-- A nonnegative extended real other than plus infinity is a real number: being at least zero, it is
    not minus infinity either. -/
theorem isReal_of_nonneg_of_ne_top {x : EReal} (h0 : 0 ≤ x) (ht : x ≠ ⊤) : IsReal x :=
  isReal_of_ne_top_of_ne_bot ht (lt_of_lt_of_le EReal.bot_lt_zero h0).ne'

/-- The image of a finite sum of real numbers is the sum of the images. -/
private theorem coe_sum {ι : Type} (s : Finset ι) (g : ι → ℝ) :
    ((∑ e ∈ s, g e : ℝ) : EReal) = ∑ e ∈ s, (g e : EReal) := by
  classical
  induction s using Finset.induction_on with
  | empty => rw [Finset.sum_empty, Finset.sum_empty, EReal.coe_zero]
  | insert b t hb ih => rw [Finset.sum_insert hb, Finset.sum_insert hb, EReal.coe_add, ih]

/-- The exchange law over the real numbers: both sides expand to the double sum of `a e k * w k * c e`,
    summed in the two possible orders. -/
private theorem commute_real {ι κ : Type} [Fintype κ] (s : Finset ι) (a : ι → κ → ℝ) (w : κ → ℝ)
    (c : ι → ℝ) :
    ∑ e ∈ s, (∑ k, a e k * w k) * c e = ∑ k, (∑ e ∈ s, a e k * c e) * w k := by
  simp only [Finset.sum_mul]
  rw [Finset.sum_comm]
  refine Finset.sum_congr rfl (fun k _ => Finset.sum_congr rfl (fun e _ => ?_))
  exact mul_right_comm (a e k) (w k) (c e)

/-- THE COMMUTE LAW: a weighted sum over edges of matrix-vector products is the matrix-vector product of
    the weighted sums, when every entry is real. Both edge sums start from zero, as a scatter-add into a
    zero array does. -/
theorem commute {ι κ : Type} [Fintype κ] (s : Finset ι) (a : ι → κ → EReal) (w : κ → EReal)
    (c : ι → EReal) (ha : ∀ e k, IsReal (a e k)) (hw : ∀ k, IsReal (w k)) (hc : ∀ e, IsReal (c e)) :
    (0 + ∑ e ∈ s, (∑ k, a e k * w k) * c e) = ∑ k, (0 + ∑ e ∈ s, a e k * c e) * w k := by
  choose a' ha' using ha
  choose w' hw' using hw
  choose c' hc' using hc
  -- every entry is the image of a real number, so both sides are images of real expressions
  have hL : (0 + ∑ e ∈ s, (∑ k, a e k * w k) * c e)
      = ((∑ e ∈ s, (∑ k, a' e k * w' k) * c' e : ℝ) : EReal) := by
    rw [zero_add, coe_sum]
    refine Finset.sum_congr rfl (fun e _ => ?_)
    rw [EReal.coe_mul, coe_sum, hc' e]
    congr 1
    refine Finset.sum_congr rfl (fun k _ => ?_)
    rw [EReal.coe_mul, ha' e k, hw' k]
  have hR : (∑ k, (0 + ∑ e ∈ s, a e k * c e) * w k)
      = ((∑ k, (∑ e ∈ s, a' e k * c' e) * w' k : ℝ) : EReal) := by
    rw [coe_sum]
    refine Finset.sum_congr rfl (fun k _ => ?_)
    rw [zero_add, EReal.coe_mul, coe_sum, hw' k]
    congr 1
    refine Finset.sum_congr rfl (fun e _ => ?_)
    rw [EReal.coe_mul, ha' e k, hc' e]
  rw [hL, hR, commute_real s a' w' c']

/-- A sum over 136 coordinates split as 64 + 64 + 8 consecutive coordinates, grouped
    (first + second) + third. -/
theorem sum_split_136 (f : Fin 136 → EReal) :
    ∑ q : Fin 136, f q
      = (∑ q : Fin 64, f ⟨q.val, by omega⟩ + ∑ q : Fin 64, f ⟨64 + q.val, by omega⟩)
        + ∑ q : Fin 8, f ⟨128 + q.val, by omega⟩ := by
  have h1 : ∑ q : Fin (64 + 64 + 8), f q
      = ∑ q : Fin (64 + 64), f (Fin.castAdd 8 q) + ∑ q : Fin 8, f (Fin.natAdd (64 + 64) q) :=
    Fin.sum_univ_add (fun q : Fin (64 + 64 + 8) => f q)
  have h2 : ∑ q : Fin (64 + 64), f (Fin.castAdd 8 q)
      = ∑ q : Fin 64, f (Fin.castAdd 8 (Fin.castAdd 64 q))
        + ∑ q : Fin 64, f (Fin.castAdd 8 (Fin.natAdd 64 q)) :=
    Fin.sum_univ_add (fun q : Fin (64 + 64) => f (Fin.castAdd 8 q))
  rw [h2] at h1
  exact h1

end Cert.RealSum
-- ==== Proof.Algebra.lean ====
/-
  The two spellings of the two-layer neighbourhood-mean network are one function on real inputs.

  * A quotient by a degree that is at least one is the product with the reciprocal: for y ≠ 0 the quotient x / y
    IS x · y⁻¹, and 1 / y is 1 · y⁻¹. No finiteness is needed for this.
  * For a real M and ANY L, x − (M + L) = (x − M) − L. (For M = +∞, L = −∞ this fails on the extended reals, which
    is why the row maximum has to be known to be real.) The maximum of a non-empty row of reals, folded from −∞,
    is real: it is below +∞ because every entry and −∞ are, and above −∞ because the first entry is.
  * Real numbers are closed under everything a layer does: sums of products, the bias, ELU (u itself for u > 0,
    e^u − 1 otherwise), and the product with the reciprocal of a degree at least one (1 / +∞ = 0 is real too).
  So every layer's output is real, the second layer's rows have real maxima, and the two log-softmax spellings
  agree on them.
-/
import proofs.«114628_j37194416783909_1_alg».proof.Proof.Spec
import proofs.«114628_j37194416783909_1_alg».proof.Proof.LibRealSum

noncomputable section

open scoped BigOperators

namespace Cert.Sage

open Idealize.ShloMosaic Idealize.ShloMosaic.ValueIdx Cert.GraphConv Cert.RealSum

variable {N K C : Nat}

/-! ## The mean as a quotient and as a product -/

/-- A degree at least one is not zero. -/
theorem ne_zero_of_one_le {y : EReal} (h : (1 : EReal) ≤ y) : y ≠ 0 := fun h0 =>
  absurd (h0 ▸ h) (not_le.mpr (by exact_mod_cast (zero_lt_one : (0 : ℝ) < 1)))

/-- Dividing by a degree at least one is multiplying by its reciprocal. -/
theorem meanDiv_eq_meanMul (s : Mat N K) (d : Vect N) (hd : ∀ n : Fin N, (1 : EReal) ≤ d (ix1 n)) :
    meanDiv s d = meanMul s d := by
  funext j
  have h0 : d (ix1 (j 0)) ≠ 0 := ne_zero_of_one_le (hd (j 0))
  unfold meanDiv meanMul Ideal.div
  rw [if_neg h0, if_neg h0, one_mul]

/-! ## The two log-softmax spellings -/

/-- The word of −∞ is the bottom of the extended reals. -/
theorem ninf_eq_bot : RowLogSoftmax.ninf = ⊥ := by
  simp [RowLogSoftmax.ninf, Ideal.ofBits, Ideal.ieee]

/-- The maximum of a non-empty row of reals, folded from −∞, is a real number. -/
theorem top_real {n : ℕ} (hn : 0 < n) (l : Fin n → EReal) (hl : ∀ k, IsReal (l k)) :
    IsReal (RowLogSoftmax.top l) := by
  unfold RowLogSoftmax.top
  rw [ninf_eq_bot]
  refine isReal_of_ne_top_of_ne_bot (LT.lt.ne ?_) (LT.lt.ne' ?_)
  · rw [Finset.fold_max_lt]
    refine ⟨bot_lt_top, fun k _ => ?_⟩
    obtain ⟨r, hr⟩ := hl k
    rw [hr]
    exact EReal.coe_lt_top r
  · rw [Finset.lt_fold_max]
    obtain ⟨r, hr⟩ := hl ⟨0, hn⟩
    exact Or.inr ⟨⟨0, hn⟩, Finset.mem_univ _, by rw [hr]; exact EReal.bot_lt_coe r⟩

/-- For a real M and any L, x − (M + L) = (x − M) − L. -/
theorem sub_add_of_real {x M L : EReal} (hM : IsReal M) : x - (M + L) = x - M - L := by
  obtain ⟨m, rfl⟩ := hM
  calc x - ((m : EReal) + L) = x + -((m : EReal) + L) := sub_eq_add_neg _ _
    _ = x + (-(m : EReal) - L) := by
        rw [EReal.neg_add (Or.inl (EReal.coe_ne_bot m)) (Or.inl (EReal.coe_ne_top m))]
    _ = x + (-(m : EReal) + -L) := by rw [sub_eq_add_neg (-(m : EReal)) L]
    _ = x + -(m : EReal) + -L := (add_assoc _ _ _).symm
    _ = x - (m : EReal) - L := by rw [← sub_eq_add_neg, ← sub_eq_add_neg]

/-- On a matrix of reals with non-empty rows the two log-softmax spellings agree. -/
theorem lsm_eq_lsmK (hC : 0 < C) (a : Mat N C) (ha : ∀ j, IsReal (a j)) : lsm a = lsmK a := by
  funext j
  have hM : IsReal (RowLogSoftmax.top (rowOf a (j 0))) := top_real hC _ (fun k => ha _)
  unfold lsm lsmK RowLogSoftmax.logSoftmax
  rw [sub_add_of_real hM]
  congr 1
  exact congrArg (fun z => a z - RowLogSoftmax.top (rowOf a (j 0))) (eq_ix2 j).symm

/-! ## Real numbers are kept by every step of a layer -/

/-- ELU of a real number is a real number: the number itself, or its exponential minus one. -/
theorem eluS_real {u : EReal} (hu : IsReal u) : IsReal (Cert.Elu.eluS u) := by
  unfold Cert.Elu.eluS Scalar.select
  split
  · exact hu
  · obtain ⟨r, rfl⟩ := hu
    show IsReal (Ideal.exp (r : EReal) - Ideal.ofBits .f32 0x3F800000#32)
    rw [Ideal.ofBits_one_f32, Ideal.exp_coe]
    exact ⟨Real.exp r - 1, by rw [EReal.coe_sub, EReal.coe_one]⟩

/-- A layer of real operands is real. -/
theorem layer_real (a x : Mat N K) (wl wr : Mat K C) (b : Vect C) (ha : ∀ j, IsReal (a j))
    (hx : ∀ j, IsReal (x j)) (hwl : ∀ j, IsReal (wl j)) (hwr : ∀ j, IsReal (wr j)) (hb : ∀ j, IsReal (b j)) :
    ∀ j, IsReal (layer a x wl wr b j) := by
  intro j
  unfold layer
  refine eluS_real ?_
  unfold conv
  exact ((isReal_sum _ _ fun q _ => (ha _).mul (hwl _)).add
    (isReal_sum _ _ fun q _ => (hx _).mul (hwr _))).add (hb _)

/-- The reciprocal of a degree at least one is a real number (of +∞ it is zero). -/
theorem recip_real {y : EReal} (h : (1 : EReal) ≤ y) : IsReal (Ideal.div 1 y) := by
  unfold Ideal.div
  rw [if_neg (ne_zero_of_one_le h), one_mul]
  induction y using EReal.rec with
  | bot => exact absurd (le_bot_iff.mp h) (by rw [← EReal.coe_one]; exact EReal.coe_ne_bot 1)
  | coe r => exact ⟨r⁻¹, (EReal.coe_inv r).symm⟩
  | top => rw [EReal.inv_top]; exact isReal_zero

/-- Real neighbour sums times the reciprocal of a degree at least one are real. -/
theorem meanMul_real (s : Mat N K) (d : Vect N) (hs : ∀ j, IsReal (s j))
    (hd : ∀ n : Fin N, (1 : EReal) ≤ d (ix1 n)) : ∀ j, IsReal (meanMul s d j) := by
  intro j
  unfold meanMul
  exact (hs j).mul (recip_real (hd (j 0)))

/-! ## The two networks -/

/-- With degrees at least one, an aggregation that keeps real numbers real, real features, weights and biases,
    and at least one class, the two networks are the same function. -/
theorem net_eq (hC : 0 < C) (agg : Mat N K → Mat N K)
    (hagg : ∀ f : Mat N K, (∀ j, IsReal (f j)) → ∀ j, IsReal (agg f j)) (d : Vect N)
    (hd : ∀ n : Fin N, (1 : EReal) ≤ d (ix1 n))
    (x : Mat N K) (wl0 wr0 : Mat K K) (b0 : Vect K) (wl1 wr1 : Mat K C) (b1 : Vect C)
    (hx : ∀ j, IsReal (x j)) (hwl0 : ∀ j, IsReal (wl0 j)) (hwr0 : ∀ j, IsReal (wr0 j)) (hb0 : ∀ j, IsReal (b0 j))
    (hwl1 : ∀ j, IsReal (wl1 j)) (hwr1 : ∀ j, IsReal (wr1 j)) (hb1 : ∀ j, IsReal (b1 j)) :
    refNet agg d x wl0 wr0 b0 wl1 wr1 b1 = kerNet agg d x wl0 wr0 b0 wl1 wr1 b1 := by
  have h1 : ∀ j, IsReal (layer (meanMul (agg x) d) x wl0 wr0 b0 j) :=
    layer_real _ _ _ _ _ (meanMul_real _ d (hagg x hx) hd) hx hwl0 hwr0 hb0
  have h2 : ∀ j, IsReal (layer (meanMul (agg (layer (meanMul (agg x) d) x wl0 wr0 b0)) d)
      (layer (meanMul (agg x) d) x wl0 wr0 b0) wl1 wr1 b1 j) :=
    layer_real _ _ _ _ _ (meanMul_real _ d (hagg _ h1) hd) h1 hwl1 hwr1 hb1
  unfold refNet kerNet
  rw [meanDiv_eq_meanMul (agg x) d hd, meanDiv_eq_meanMul _ d hd]
  exact lsm_eq_lsmK hC _ h2

end Cert.Sage

end
-- ==== Proof.LibRowGatherScatter.lean ====
/-
  ROW GATHER AND ROW / VECTOR SCATTER-ADD, READ AT ONE ENTRY (general lemmas: any extents, any element type).

  A table `x : [N, C]` is gathered at `E` start indices `S : [E, 1]` (what `x[src]` lowers to): result row `e` is the
  table's row at `S[e, 0]`, the start index read as a signed integer and clamped into `[0, N − 1]` (`srcRow`):
      gather x S (e, k) = x (srcRow S e, k)                                            (`gather_row_apply`).
  `E` update rows `u : [E, C]` are scatter-added into `x : [N, C]` at scatter indices `D : [E, 1]` (what a segment sum
  lowers to): update row `e` lands on row `n` exactly when `D[e, 0]`, read as a signed integer and NOT clamped, is `n`
  (`Lands D e n`); an update whose index is negative or at least `N` lands nowhere. In exact (extended-real)
  arithmetic the result's entry is the operand's entry plus the sum, over the edges that land there, of their updates:
      scatterAdd x D u (n, k) = x (n, k) + ∑ e with Lands D e n, u (e, k)              (`scatterAdd_row_apply`),
  and the same for `E` scalars scatter-added into a vector `x : [N]` (a degree count):
      scatterAdd x D u (n)    = x (n)    + ∑ e with Lands D e n, u (e)                 (`scatterAdd_vec_apply`).

  The dimension numbers enter through the predicates `IsRowGather`, `IsRowScatter`, `IsVecScatter`, which say what
  the lists of a record are; at a literal record every field equation is `rfl`. Each lemma is first proved for the
  literal record (`rowGatherDims`, `rowScatterDims`, `vecScatterDims`: those lists with an arbitrary proof of their
  conditions) by computing the start, window and offset coordinates axis by axis; the scatter lemmas go through the
  characterisation of the landing index (`resultIdx?_rowDims`: update `(e, c)` lands on `(n, k)` iff `Lands D e n` and
  `c = k`; `resultIdx?_vecDims`: update `e` lands on `n` iff `Lands D e n`) and then re-index the sum over update
  multi-indices by the edge number.
-/
import Idealize.ShloMosaic.PureOps.Ideal
import Idealize.ShloMosaic.Lib.ValueIdx

noncomputable section

open scoped BigOperators

namespace Cert.RowGS

open Idealize.ShloMosaic Idealize.ShloMosaic.ValueIdx

variable {N E C w : Nat}

/-- The row an edge reads: its start index read as a signed integer and clamped into `[0, N − 1]`. -/
def srcRow (hN : 0 < N) (S : IVec ⟨2, ![E, 1]⟩ w) (e : Fin E) : Fin N :=
  ⟨min (S (ix2 e (0 : Fin 1))).toInt.toNat (N - 1), by omega⟩

/-- Edge `e`'s update lands on row `n`: its scatter index read as a signed integer is `n`. -/
abbrev Lands (D : IVec ⟨2, ![E, 1]⟩ w) (e : Fin E) (n : Fin N) : Prop :=
  (D (ix2 e (0 : Fin 1))).toInt = (n.val : Int)

/-- An axis of a rank-2 shape is the first or the second. -/
theorem fin2_cases (a : Fin 2) : a = 0 ∨ a = 1 := by
  match a with
  | ⟨0, _⟩ => exact Or.inl rfl
  | ⟨1, _⟩ => exact Or.inr rfl

/-! ## Gather of whole rows -/

/-- `g` gathers whole rows of an `[N, C]` table at `[E, 1]` start indices: the row axis is collapsed and is the one
    the start index addresses, the column axis is the one offset axis with the full slice `C`, nothing is batched. -/
structure IsRowGather (g : GatherDims ⟨2, ![N, C]⟩ ⟨2, ![E, 1]⟩ ⟨2, ![E, C]⟩) : Prop where
  od : g.offsetDims = [1]
  cs : g.collapsedSliceDims = [0]
  ob : g.operandBatchingDims = []
  sb : g.startIndicesBatchingDims = []
  sim : g.startIndexMap = [0]
  ivd : g.indexVectorDim = 1
  ss : g.sliceSizes = ![1, C]

/-- The row-gather dimension numbers as a literal record (any proof `wf` of their conditions). -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather at the literal record, read at `(e, k)`. On the row axis the operand coordinate is the clamped start
    (no batching coordinate; the axis is collapsed, so no offset); on the column axis the start is `0` (the start
    index does not address it) and the offset coordinate is `k`. -/
theorem gather_rowDims_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (S : IVec ⟨2, ![E, 1]⟩ w) (e : Fin E) (k : Fin C) :
    Host.gather (rowGatherDims N E C wf) x S (ix2 e k) = x (ix2 (srcRow hN S e) k) := by
  unfold Host.gather
  congr 1
  funext a
  refine Fin.ext ?_
  show (rowGatherDims N E C wf).start (ix2 e k) S a + (rowGatherDims N E C wf).batchCoord (ix2 e k) a
    + (rowGatherDims N E C wf).offCoord (ix2 e k) a = _
  rw [GatherDims.batchCoord_eq_zero _ _ _ List.not_mem_nil]
  rcases fin2_cases a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    -- the start index of result row `e` is read at `[e, 0]`
    have hsi : (rowGatherDims N E C wf).siIdx (ix2 e k)
        ⟨List.idxOf (0 : Fin 2) (rowGatherDims N E C wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · unfold GatherDims.start
    rw [dif_neg (show (1 : Fin 2) ∉ (rowGatherDims N E C wf).startIndexMap from
      show (1 : Fin 2) ∉ ([0] : List (Fin 2)) from by decide)]
    unfold GatherDims.offCoord
    rw [dif_pos ((GatherDims.mem_sKept _ _).mpr
      ⟨show (1 : Fin 2) ∉ ([0] : List (Fin 2)) from by decide, List.not_mem_nil⟩)]
    simp only [Nat.add_zero, Nat.zero_add]
    rfl

/-- THE ROW GATHER READ AT `(e, k)`: the table at row `srcRow S e` (the start index `S[e, 0]`, read signed and clamped
    into `[0, N − 1]`), column `k`. -/
theorem gather_row_apply {α : Type} {g : GatherDims ⟨2, ![N, C]⟩ ⟨2, ![E, 1]⟩ ⟨2, ![E, C]⟩} (hg : IsRowGather g)
    (hN : 0 < N) (x : (⟨2, ![N, C]⟩ : Shape).Idx → α) (S : IVec ⟨2, ![E, 1]⟩ w) (e : Fin E) (k : Fin C) :
    Host.gather g x S (ix2 e k) = x (ix2 (srcRow hN S e) k) := by
  obtain ⟨od, cs, ob, sb, sim, ivd, ss, wf⟩ := g
  obtain ⟨h1, h2, h3, h4, h5, h6, h7⟩ := hg
  dsimp only at h1 h2 h3 h4 h5 h6 h7
  subst h1 h2 h3 h4 h5 h6 h7
  exact gather_rowDims_apply hN wf x S e k

/-! ## Scatter-add of rows into an `[N, C]` array -/

/-- `d` scatters `[E, C]` update rows into an `[N, C]` operand at `[E, 1]` scatter indices: the row axis is the
    inserted one and the one the scatter index addresses, the column axis is the one window axis. -/
structure IsRowScatter (d : ScatterDims ⟨2, ![N, C]⟩ ⟨2, ![E, 1]⟩ ⟨2, ![E, C]⟩) : Prop where
  uw : d.updateWindowDims = [1]
  iw : d.insertedWindowDims = [0]
  sd : d.scatterDimsToOperandDims = [0]
  ivd : d.indexVectorDim = 1

/-- The row-scatter dimension numbers as a literal record (any proof `wf` of their conditions). -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An operand axis carries a window coordinate exactly when it is not an inserted axis. -/
theorem scatter_mem_sKept {s si u : Shape} (d : ScatterDims s si u) (a : Fin s.rank) :
    a ∈ d.sKept ↔ a ∉ d.insertedWindowDims := by
  simp [ScatterDims.sKept, Shape.kept, List.mem_filter, List.mem_finRange]

section RowScatter
variable (wf : ScatterDims.WF ⟨2, ![N, C]⟩ ⟨2, ![E, 1]⟩ ⟨2, ![E, C]⟩ [1] [0] [0] 1)
  (j : (⟨2, ![E, C]⟩ : Shape).Idx) (D : IVec ⟨2, ![E, 1]⟩ w)

/-- On the row axis the window of update `(e, c)` starts at the scatter index `D[e, 0]`, read signed … -/
theorem rowScatter_start0 :
    (rowScatterDims N E C wf).start j D (0 : Fin 2) = (D (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j
      ⟨List.idxOf (0 : Fin 2) (rowScatterDims N E C wf).scatterDimsToOperandDims,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … on the column axis, which the scatter index does not address, at `0`. -/
theorem rowScatter_start1 : (rowScatterDims N E C wf).start j D (1 : Fin 2) = 0 := by
  unfold ScatterDims.start
  rw [dif_neg (show (1 : Fin 2) ∉ (rowScatterDims N E C wf).scatterDimsToOperandDims from
    show (1 : Fin 2) ∉ ([0] : List (Fin 2)) from by decide)]

/-- The row axis is inserted: no window coordinate there … -/
theorem rowScatter_window0 : (rowScatterDims N E C wf).window j (0 : Fin 2) = 0 := by
  unfold ScatterDims.window
  rw [dif_neg (fun h => (scatter_mem_sKept _ _).mp h (List.mem_singleton.mpr rfl))]

/-- … and on the column axis the window coordinate of update `(e, c)` is `c`. -/
theorem rowScatter_window1 : (rowScatterDims N E C wf).window j (1 : Fin 2) = (j 1).val := by
  unfold ScatterDims.window
  rw [dif_pos ((scatter_mem_sKept _ _).mpr (show (1 : Fin 2) ∉ ([0] : List (Fin 2)) from by decide))]
  rfl

/-- WHERE AN UPDATE LANDS: update `(e, c)` lands on `(n, k)` iff its scatter index, read signed, is `n` and `c = k`.
    (The landing index is start plus window coordinate on each axis, kept only when in range: on the row axis that
    is `D[e, 0] + 0`, in range iff it is some `n < N`; on the column axis `0 + c`, always in range.) -/
theorem resultIdx?_rowDims (i : (⟨2, ![N, C]⟩ : Shape).Idx) :
    (rowScatterDims N E C wf).resultIdx? j D = some i ↔ Lands D (j 0) (i 0) ∧ (j 1).val = (i 1).val := by
  have hs0 := rowScatter_start0 wf j D
  have hs1 := rowScatter_start1 wf j D
  have hw0 := rowScatter_window0 wf j
  have hw1 := rowScatter_window1 wf j
  have hi0 : (i 0).val < N := idx2_lt0 i
  have hi1 : (i 1).val < C := idx2_lt1 i
  have hj1 : (j 1).val < C := idx2_lt1 j
  unfold ScatterDims.resultIdx?
  constructor
  · intro h
    split at h
    · rename_i hc
      have hf := Option.some.inj h
      have e0 : ((rowScatterDims N E C wf).start j D (0 : Fin 2)
          + ((rowScatterDims N E C wf).window j (0 : Fin 2) : Int)).toNat = (i 0).val :=
        congrArg Fin.val (congrFun hf 0)
      have e1 : ((rowScatterDims N E C wf).start j D (1 : Fin 2)
          + ((rowScatterDims N E C wf).window j (1 : Fin 2) : Int)).toNat = (i 1).val :=
        congrArg Fin.val (congrFun hf 1)
      have c0 := (hc 0).1
      have c1 := (hc 1).1
      rw [hs0, hw0] at e0 c0
      rw [hs1, hw1] at e1 c1
      refine ⟨?_, ?_⟩
      · show (D (ix2 (j 0) (0 : Fin 1))).toInt = ((i 0).val : Int)
        omega
      · omega
    · cases h
  · rintro ⟨hl, h1⟩
    have hl' : (D (ix2 (j 0) (0 : Fin 1))).toInt = ((i 0).val : Int) := hl
    have hc : ∀ a, 0 ≤ (rowScatterDims N E C wf).start j D a + ((rowScatterDims N E C wf).window j a : Int) ∧
        (rowScatterDims N E C wf).start j D a + ((rowScatterDims N E C wf).window j a : Int)
          < ((⟨2, ![N, C]⟩ : Shape).size a : Int) := by
      intro a
      rcases fin2_cases a with rfl | rfl
      · rw [hs0, hw0, hl']
        show 0 ≤ ((i 0).val : Int) + ((0 : Nat) : Int) ∧ ((i 0).val : Int) + ((0 : Nat) : Int) < (N : Int)
        omega
      · rw [hs1, hw1]
        show (0 : Int) ≤ 0 + ((j 1).val : Int) ∧ (0 : Int) + ((j 1).val : Int) < (C : Int)
        omega
    rw [dif_pos hc]
    congr 1
    funext a
    refine Fin.ext ?_
    rcases fin2_cases a with rfl | rfl
    · show ((rowScatterDims N E C wf).start j D (0 : Fin 2)
          + ((rowScatterDims N E C wf).window j (0 : Fin 2) : Int)).toNat = (i 0).val
      rw [hs0, hw0, hl']
      omega
    · show ((rowScatterDims N E C wf).start j D (1 : Fin 2)
          + ((rowScatterDims N E C wf).window j (1 : Fin 2) : Int)).toNat = (i 1).val
      rw [hs1, hw1]
      omega

end RowScatter

section RowScatterSum
variable (wf : ScatterDims.WF ⟨2, ![N, C]⟩ ⟨2, ![E, 1]⟩ ⟨2, ![E, C]⟩ [1] [0] [0] 1)

/-- The row scatter-add at the literal record, read at `(n, k)`: the updates landing on `(n, k)` are the `(e, k)`
    with `Lands D e n`, and `(e, c) ↦ e`, `e ↦ (e, k)` are inverse bijections between the two index sets. -/
theorem scatterAdd_rowDims_apply {φ : FTy} (x : FVec Ideal ⟨2, ![N, C]⟩ φ) (D : IVec ⟨2, ![E, 1]⟩ w)
    (u : FVec Ideal ⟨2, ![E, C]⟩ φ) (n : Fin N) (k : Fin C) :
    Host.scatterAdd (rowScatterDims N E C wf) x D u (ix2 n k)
      = x (ix2 n k) + ∑ e ∈ Finset.univ.filter (fun e : Fin E => Lands D e n), u (ix2 e k) := by
  show Ideal.hostScatterAdd (rowScatterDims N E C wf) x D u (ix2 n k) = _
  unfold Ideal.hostScatterAdd
  congr 1
  refine Finset.sum_nbij' (fun j => (j 0 : Fin E)) (fun e => ix2 e k) ?_ ?_ ?_ ?_ ?_
  · intro j hj
    obtain ⟨a, b, rfl⟩ : ∃ a b, j = ix2 a b := ⟨_, _, eq_ix2 j⟩
    have h := (resultIdx?_rowDims wf (ix2 a b) D (ix2 n k)).mp (Finset.mem_filter.mp hj).2
    exact Finset.mem_filter.mpr ⟨Finset.mem_univ _, h.1⟩
  · intro e he
    have h : Lands D e n := (Finset.mem_filter.mp he).2
    exact Finset.mem_filter.mpr ⟨Finset.mem_univ _, (resultIdx?_rowDims wf (ix2 e k) D (ix2 n k)).mpr ⟨h, rfl⟩⟩
  · intro j hj
    obtain ⟨a, b, rfl⟩ : ∃ a b, j = ix2 a b := ⟨_, _, eq_ix2 j⟩
    have h := (resultIdx?_rowDims wf (ix2 a b) D (ix2 n k)).mp (Finset.mem_filter.mp hj).2
    obtain rfl : b = k := Fin.ext h.2
    rfl
  · intro e _
    rfl
  · intro j hj
    obtain ⟨a, b, rfl⟩ : ∃ a b, j = ix2 a b := ⟨_, _, eq_ix2 j⟩
    have h := (resultIdx?_rowDims wf (ix2 a b) D (ix2 n k)).mp (Finset.mem_filter.mp hj).2
    obtain rfl : b = k := Fin.ext h.2
    rfl

end RowScatterSum

/-- THE ROW SCATTER-ADD READ AT `(n, k)`: the operand's entry plus the sum, over the edges `e` whose scatter index
    (read signed, not clamped) is `n`, of the update entries `u (e, k)`. -/
theorem scatterAdd_row_apply {φ : FTy} {d : ScatterDims ⟨2, ![N, C]⟩ ⟨2, ![E, 1]⟩ ⟨2, ![E, C]⟩} (hd : IsRowScatter d)
    (x : FVec Ideal ⟨2, ![N, C]⟩ φ) (D : IVec ⟨2, ![E, 1]⟩ w) (u : FVec Ideal ⟨2, ![E, C]⟩ φ) (n : Fin N) (k : Fin C) :
    Host.scatterAdd d x D u (ix2 n k)
      = x (ix2 n k) + ∑ e ∈ Finset.univ.filter (fun e : Fin E => Lands D e n), u (ix2 e k) := by
  obtain ⟨uw, iw, sd, ivd, wf⟩ := d
  obtain ⟨h1, h2, h3, h4⟩ := hd
  dsimp only at h1 h2 h3 h4
  subst h1 h2 h3 h4
  exact scatterAdd_rowDims_apply wf x D u n k

/-! ## Scatter-add of scalars into an `[N]` vector -/

/-- `d` scatters `[E]` update scalars into an `[N]` operand at `[E, 1]` scatter indices: the operand's one axis is
    inserted and addressed by the scatter index; the updates have no window axis. -/
structure IsVecScatter (d : ScatterDims ⟨1, ![N]⟩ ⟨2, ![E, 1]⟩ ⟨1, ![E]⟩) : Prop where
  uw : d.updateWindowDims = []
  iw : d.insertedWindowDims = [0]
  sd : d.scatterDimsToOperandDims = [0]
  ivd : d.indexVectorDim = 1

/-- The vector-scatter dimension numbers as a literal record (any proof `wf` of their conditions). -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section VecScatter
variable (wf : ScatterDims.WF ⟨1, ![N]⟩ ⟨2, ![E, 1]⟩ ⟨1, ![E]⟩ [] [0] [0] 1)
  (j : (⟨1, ![E]⟩ : Shape).Idx) (D : IVec ⟨2, ![E, 1]⟩ w)

/-- The window of update `e` starts at the scatter index `D[e, 0]`, read signed … -/
theorem vecScatter_start0 :
    (vecScatterDims N E wf).start j D (0 : Fin 1) = (D (ix2 (j 0) (0 : Fin 1))).toInt := by
  unfold ScatterDims.start
  rw [dif_pos (show (0 : Fin 1) ∈ (vecScatterDims N E wf).scatterDimsToOperandDims from List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … and the operand's axis is inserted: no window coordinate. -/
theorem vecScatter_window0 : (vecScatterDims N E wf).window j (0 : Fin 1) = 0 := by
  unfold ScatterDims.window
  rw [dif_neg (fun h => (scatter_mem_sKept _ _).mp h (List.mem_singleton.mpr rfl))]

/-- WHERE AN UPDATE LANDS: update `e` lands on `n` iff its scatter index, read signed, is `n`. -/
theorem resultIdx?_vecDims (i : (⟨1, ![N]⟩ : Shape).Idx) :
    (vecScatterDims N E wf).resultIdx? j D = some i ↔ Lands D (j 0) (i 0) := by
  have hs0 := vecScatter_start0 wf j D
  have hw0 := vecScatter_window0 wf j
  have hi0 : (i 0).val < N := (i 0).isLt
  unfold ScatterDims.resultIdx?
  constructor
  · intro h
    split at h
    · rename_i hc
      have hf := Option.some.inj h
      have e0 : ((vecScatterDims N E wf).start j D (0 : Fin 1)
          + ((vecScatterDims N E wf).window j (0 : Fin 1) : Int)).toNat = (i 0).val :=
        congrArg Fin.val (congrFun hf 0)
      have c0 := (hc 0).1
      rw [hs0, hw0] at e0 c0
      show (D (ix2 (j 0) (0 : Fin 1))).toInt = ((i 0).val : Int)
      omega
    · cases h
  · intro hl
    have hl' : (D (ix2 (j 0) (0 : Fin 1))).toInt = ((i 0).val : Int) := hl
    have hc : ∀ a, 0 ≤ (vecScatterDims N E wf).start j D a + ((vecScatterDims N E wf).window j a : Int) ∧
        (vecScatterDims N E wf).start j D a + ((vecScatterDims N E wf).window j a : Int)
          < ((⟨1, ![N]⟩ : Shape).size a : Int) := by
      intro a
      obtain rfl : a = (0 : Fin 1) := Subsingleton.elim _ _
      rw [hs0, hw0, hl']
      show 0 ≤ ((i 0).val : Int) + ((0 : Nat) : Int) ∧ ((i 0).val : Int) + ((0 : Nat) : Int) < (N : Int)
      omega
    rw [dif_pos hc]
    congr 1
    funext a
    refine Fin.ext ?_
    obtain rfl : a = (0 : Fin 1) := Subsingleton.elim _ _
    show ((vecScatterDims N E wf).start j D (0 : Fin 1)
        + ((vecScatterDims N E wf).window j (0 : Fin 1) : Int)).toNat = (i 0).val
    rw [hs0, hw0, hl']
    omega

end VecScatter

section VecScatterSum
variable (wf : ScatterDims.WF ⟨1, ![N]⟩ ⟨2, ![E, 1]⟩ ⟨1, ![E]⟩ [] [0] [0] 1)

/-- The vector scatter-add at the literal record, read at `n`: an update index is its one coordinate, the edge
    number, and it lands on `n` iff `Lands D e n`. -/
theorem scatterAdd_vecDims_apply {φ : FTy} (x : FVec Ideal ⟨1, ![N]⟩ φ) (D : IVec ⟨2, ![E, 1]⟩ w)
    (u : FVec Ideal ⟨1, ![E]⟩ φ) (n : Fin N) :
    Host.scatterAdd (vecScatterDims N E wf) x D u (ix1 n)
      = x (ix1 n) + ∑ e ∈ Finset.univ.filter (fun e : Fin E => Lands D e n), u (ix1 e) := by
  show Ideal.hostScatterAdd (vecScatterDims N E wf) x D u (ix1 n) = _
  unfold Ideal.hostScatterAdd
  congr 1
  refine Finset.sum_nbij' (fun j => (j 0 : Fin E)) (fun e => ix1 e) ?_ ?_ ?_ ?_ ?_
  · intro j hj
    obtain ⟨a, rfl⟩ : ∃ a, j = ix1 a := ⟨_, eq_ix1 j⟩
    have h := (resultIdx?_vecDims wf (ix1 a) D (ix1 n)).mp (Finset.mem_filter.mp hj).2
    exact Finset.mem_filter.mpr ⟨Finset.mem_univ _, h⟩
  · intro e he
    have h : Lands D e n := (Finset.mem_filter.mp he).2
    exact Finset.mem_filter.mpr ⟨Finset.mem_univ _, (resultIdx?_vecDims wf (ix1 e) D (ix1 n)).mpr h⟩
  · intro j _
    obtain ⟨a, rfl⟩ : ∃ a, j = ix1 a := ⟨_, eq_ix1 j⟩
    rfl
  · intro e _
    rfl
  · intro j _
    obtain ⟨a, rfl⟩ : ∃ a, j = ix1 a := ⟨_, eq_ix1 j⟩
    rfl

end VecScatterSum

/-- THE VECTOR SCATTER-ADD READ AT `n`: the operand's entry plus the sum, over the edges `e` whose scatter index
    (read signed, not clamped) is `n`, of the update scalars `u (e)`. -/
theorem scatterAdd_vec_apply {φ : FTy} {d : ScatterDims ⟨1, ![N]⟩ ⟨2, ![E, 1]⟩ ⟨1, ![E]⟩} (hd : IsVecScatter d)
    (x : FVec Ideal ⟨1, ![N]⟩ φ) (D : IVec ⟨2, ![E, 1]⟩ w) (u : FVec Ideal ⟨1, ![E]⟩ φ) (n : Fin N) :
    Host.scatterAdd d x D u (ix1 n)
      = x (ix1 n) + ∑ e ∈ Finset.univ.filter (fun e : Fin E => Lands D e n), u (ix1 e) := by
  obtain ⟨uw, iw, sd, ivd, wf⟩ := d
  obtain ⟨h1, h2, h3, h4⟩ := hd
  dsimp only at h1 h2 h3 h4
  subst h1 h2 h3 h4
  exact scatterAdd_vecDims_apply wf x D u n

end Cert.RowGS

end
-- ==== Proof.ChainFacts.lean ====
/-
  Two facts about the host operations on the edge list, read on the extended reals.

  * The degree is at least one: it is the maximum of a count with the constant one, and a maximum is at least
    its second argument. The count itself is never opened.
  * The neighbour sums of a real feature matrix are real: entry (n, k) is the zero of the matrix they are
    added into, plus the sum, over the edges whose target is n, of the feature matrix's entry at (the edge's
    source row, k); a finite sum of real numbers is real.
-/
import proofs.«114628_j37194416783909_1_alg».proof.Proof.HostChain
import proofs.«114628_j37194416783909_1_alg».proof.Proof.LibRowGatherScatter
import proofs.«114628_j37194416783909_1_alg».proof.Proof.LibRealSum
import proofs.«114628_j37194416783909_1_alg».proof.Proof.LibGraphConv
import Idealize.ShloMosaic.Lib.ValueIdx
import Idealize.ShloMosaic.Lib.IdealHost

set_option maxRecDepth 16384

noncomputable section

open scoped BigOperators

namespace Cert.Sage

open Idealize.ShloMosaic Idealize.ShloMosaic.ValueIdx Cert.ReferenceIdeal Cert.ReferenceIdeal.Facts₀ Cert.RealSum

variable [Cert.ReferenceIdeal.Facts₀]

/-- Every node's degree is at least one. -/
theorem degHost_ge_one (v3 : IVec S800000 32) (n : Fin 50000) : (1 : EReal) ≤ degHost v3 (ix1 n) := by
  unfold degHost
  rw [maximumf_apply, Cert.GraphConv.splat_apply, constant_apply, Ideal.ofBits_one_f32]
  exact le_max_right _ _

/-- The neighbour sums of a real feature matrix are real. -/
theorem aggHost_real (v1 v3 : IVec S800000 32) (f : FVec Ideal S50000x128 .f32) (hf : ∀ j, IsReal (f j)) :
    ∀ j, IsReal (aggHost v1 v3 f j) := by
  intro j
  obtain ⟨n, k, rfl⟩ : ∃ (n : Fin 50000) (k : Fin 128), j = ix2 n k := ⟨j 0, j 1, eq_ix2 j⟩
  unfold aggHost
  rw [Cert.RowGS.scatterAdd_row_apply ⟨rfl, rfl, rfl, rfl⟩]
  refine IsReal.add ?_ (isReal_sum _ _ fun e _ => ?_)
  · rw [Cert.GraphConv.splat_apply, constant_apply, Ideal.ofBits_zero_f32]
    exact isReal_zero
  · rw [Cert.RowGS.gather_row_apply ⟨rfl, rfl, rfl, rfl, rfl, rfl, rfl⟩ (by omega)]
    exact hf _

end Cert.Sage

end
-- ==== Proof.LibFiniteAll.lean ====
/-
  A printed "every entry is finite" test, read back on the extended reals.

  The test `all(|x| < +inf)` prints as: the absolute value of every entry, compared (ordered, less-than) with the
  broadcast of the single-precision word of plus infinity, and the resulting array of truth values reduced by `and`
  into a result that has one index. On the extended reals the absolute value is `max x (-x)` and the word
  0x7F800000 (sign 0, exponent field all ones, mantissa 0) denotes plus infinity. So an entry passes the comparison
  exactly when it is neither plus nor minus infinity, that is, when it is a real number; and a reduction by `and`
  that came out 1 met a 1 at every entry.
-/
import Idealize.ShloMosaic.PureOps.Ideal
import Idealize.ShloMosaic.Lib.ReduceAll

namespace Cert.FiniteAll

open Idealize.ShloMosaic

/-- The single-precision word with sign 0, exponent field all ones and mantissa 0 denotes plus infinity. -/
theorem ofBits_inf_f32 : Ideal.ofBits .f32 0x7F800000#32 = (⊤ : EReal) := by
  simp [Ideal.ofBits, Ideal.ieee]

/-- An extended real whose absolute value `max x (-x)` lies below plus infinity is a real number: plus infinity
    is its own absolute value, and the negative of minus infinity is plus infinity. -/
theorem exists_real_of_abs_lt_top {x : EReal} (h : max x (-x) < ⊤) : ∃ r : ℝ, x = (r : EReal) := by
  induction x using EReal.rec with
  | bot => simp at h
  | coe r => exact ⟨r, rfl⟩
  | top => simp at h

/-- One entry: if the ordered comparison `|x| < +inf` answers 1, then `x` is a real number. -/
theorem exists_real_of_cmp (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  by_cases hlt : max (x : EReal) (-(x : EReal)) < ⊤
  · exact exists_real_of_abs_lt_top hlt
  · simp [hlt] at h'

/-- THE ARRAY FACT: if `|x| < +inf`, taken entry by entry against the broadcast word of plus infinity and reduced
    by `and` into a result with one index, is 1, then every entry of `x` is a real number. The shape of `x`, the
    reduced axes, the shape the constant is broadcast from and the reduction's starting value are arbitrary. -/
theorem all_real_of_reduce_and {s t u z : Shape} {axes : List (Fin s.rank)} [Subsingleton t.Idx]
    (x : FVec Ideal s .f32) (dims : Fin z.rank → Fin s.rank) (hb : z.BroadcastsInDim s dims)
    (init : u.Idx → BitVec 1) (hr : s.ReducesTo axes t) (hu : 0 < u.numel) (j : t.Idx)
    (e : Host.reduce IntOp.andi
          (cmpf .olt (Host.absf x) (broadcastInDim s dims hb (constant (F := Ideal) z .f32 0x7F800000#32)))
          init hr hu j = 1#1)
    (i : s.Idx) : ∃ r : ℝ, (x i : EReal) = (r : EReal) :=
  exists_real_of_cmp (x i) (Host.reduce_andi_all _ init hr hu j e i)

end Cert.FiniteAll
-- ==== Proof.Finite.lean ====
/-
  The printed "every input is finite" test, read back on the extended reals.

  The test is the conjunction of seven bits, one per float input; each bit is "the absolute value of every entry
  is below plus infinity", reduced by `and` over the whole array. A conjunction that is 1 has every bit 1, and a
  reduction by `and` that is 1 met a 1 at every entry; an extended real whose absolute value is below plus
  infinity is a real number. So when the test answers 1 every entry of every float input is a real number.
-/
import proofs.«114628_j37194416783909_1_alg».proof.Pre_finite_inputs
import proofs.«114628_j37194416783909_1_alg».proof.Proof.LibFiniteAll
import proofs.«114628_j37194416783909_1_alg».proof.Proof.LibRealSum
import Idealize.ShloMosaic.Lib.ValueIdx
import Idealize.ShloMosaic.Lib.Affine

set_option maxRecDepth 16384

noncomputable section

namespace Cert.Sage

open Idealize.ShloMosaic Idealize.ShloMosaic.ValueIdx Cert.Pre_finite_inputs Cert.Pre_finite_inputs.Facts Cert.RealSum

variable [Cert.Pre_finite_inputs.Facts]

/-- The rank-0 shape has one index. -/
instance subsingleton_scalar_idx : Subsingleton S_.Idx := ⟨fun a b => funext fun d => d.elim0⟩

/-- If the finiteness test answers 1, every entry of every float input is a real number. -/
theorem real_of_pre (x : FVec Ideal S50000x128 .f32) (ei : IVec S2x800000 32) (wl0 wr0 : FVec Ideal S128x128 .f32)
    (b0 : FVec Ideal S128 .f32) (wl1 wr1 : FVec Ideal S128x40 .f32) (b1 : FVec Ideal S40 .f32)
    (h : Cert.Pre_finite_inputs.fn (F := Ideal) x ei wl0 wr0 b0 wl1 wr1 b1 = fun _ => 1#1) :
    (∀ j, IsReal (x j)) ∧ (∀ j, IsReal (wl0 j)) ∧ (∀ j, IsReal (wr0 j)) ∧ (∀ j, IsReal (b0 j))
      ∧ (∀ j, IsReal (wl1 j)) ∧ (∀ j, IsReal (wr1 j)) ∧ (∀ j, IsReal (b1 j)) := by
  have h0 := congrFun h ix0
  dsimp only [Cert.Pre_finite_inputs.fn, Cert.Pre_finite_inputs.fn_part1] at h0
  -- the conjunction of seven bits, nested to the left
  obtain ⟨h6, e7⟩ := IntOp.andi_eq_one.mp h0
  obtain ⟨h5, e6⟩ := IntOp.andi_eq_one.mp h6
  obtain ⟨h4, e5⟩ := IntOp.andi_eq_one.mp h5
  obtain ⟨h3, e4⟩ := IntOp.andi_eq_one.mp h4
  obtain ⟨h2, e3⟩ := IntOp.andi_eq_one.mp h3
  obtain ⟨e1, e2⟩ := IntOp.andi_eq_one.mp h2
  exact ⟨fun j => Cert.FiniteAll.all_real_of_reduce_and x _ _ _ _ _ ix0 e1 j,
    fun j => Cert.FiniteAll.all_real_of_reduce_and wl0 _ _ _ _ _ ix0 e2 j,
    fun j => Cert.FiniteAll.all_real_of_reduce_and wr0 _ _ _ _ _ ix0 e3 j,
    fun j => Cert.FiniteAll.all_real_of_reduce_and b0 _ _ _ _ _ ix0 e4 j,
    fun j => Cert.FiniteAll.all_real_of_reduce_and wl1 _ _ _ _ _ ix0 e5 j,
    fun j => Cert.FiniteAll.all_real_of_reduce_and wr1 _ _ _ _ _ ix0 e6 j,
    fun j => Cert.FiniteAll.all_real_of_reduce_and b1 _ _ _ _ _ ix0 e7 j⟩

end Cert.Sage

end
-- ==== Proof.Bridge.lean ====
/-
  The two networks on this graph agree whenever the finiteness test answers 1.

  The test makes every float input real; the degree (a maximum with one) is at least one at every node; the
  neighbour sums of a real matrix are real. With these the general statement about the two spellings of the network
  applies to the host's aggregation and degree.
-/
import proofs.«114628_j37194416783909_1_alg».proof.Proof.Algebra
import proofs.«114628_j37194416783909_1_alg».proof.Proof.ChainFacts
import proofs.«114628_j37194416783909_1_alg».proof.Proof.Finite

set_option maxRecDepth 16384

noncomputable section

namespace Cert.Sage

open Idealize.ShloMosaic Idealize.ShloMosaic.ValueIdx Cert.GraphConv Cert.RealSum

variable [Cert.ReferenceIdeal.Facts₀] [Cert.Pre_finite_inputs.Facts]

/-- On finite inputs the network with the mean as a quotient and the network with the mean as a product, both over
    the host's neighbour sums and degree, are the same function. -/
theorem nets_eq (x : FVec Ideal Cert.ReferenceIdeal.S50000x128 .f32) (ei : IVec Cert.ReferenceIdeal.S2x800000 32)
    (wl0 wr0 : FVec Ideal Cert.ReferenceIdeal.S128x128 .f32) (b0 : FVec Ideal Cert.ReferenceIdeal.S128 .f32)
    (wl1 wr1 : FVec Ideal Cert.ReferenceIdeal.S128x40 .f32) (b1 : FVec Ideal Cert.ReferenceIdeal.S40 .f32)
    (h : Cert.Pre_finite_inputs.fn (F := Ideal) x ei wl0 wr0 b0 wl1 wr1 b1 = fun _ => 1#1) :
    refNet (aggHost (srcIdx ei) (dstIdx ei)) (degHost (dstIdx ei)) x wl0 wr0 b0 wl1 wr1 b1
      = kerNet (aggHost (srcIdx ei) (dstIdx ei)) (degHost (dstIdx ei)) x wl0 wr0 b0 wl1 wr1 b1 := by
  obtain ⟨hx, hwl0, hwr0, hb0, hwl1, hwr1, hb1⟩ := real_of_pre x ei wl0 wr0 b0 wl1 wr1 b1 h
  exact net_eq (by omega) (aggHost (srcIdx ei) (dstIdx ei)) (aggHost_real (srcIdx ei) (dstIdx ei))
    (degHost (dstIdx ei)) (degHost_ge_one (dstIdx ei)) x wl0 wr0 b0 wl1 wr1 b1 hx hwl0 hwr0 hb0 hwl1 hwr1 hb1

end Cert.Sage

end
-- ==== Proof.lean ====
/-
  A two-layer neighbourhood-mean graph network (mean aggregation over the incoming edges, a dense layer of the mean
  and of the node's own features, ELU; twice; then log-softmax along each row), computed by a kernel program and by
  a reference program, gives the same result on the extended reals whenever every float input is a real number.

  The kernel program gathers the source rows, scatter-adds them at the targets, multiplies by the reciprocal of the
  degree, and runs each layer as a pipelined region over 25 blocks of 2000 rows; its last region also takes the
  log-softmax, as  entry − (M + log Σ exp (entry − M)).  The reference divides by the degree, adds the bias before the
  second product, spells ELU through expm1, and takes the log-softmax as  (entry − M) − log Σ exp (entry − M).
  Division by a degree that is at least one is the product with its reciprocal on every extended real; addition is
  commutative and associative; the two ELU spellings agree everywhere; and the two log-softmax spellings agree when
  the row's maximum M is a real number, which is where the precondition is used: real inputs give real neighbour
  sums, real layers, hence a real maximum.

  The kernel's run and value are in the modules KerRun, KerBody, KerBlocks, KerValue; the reference's in RefRun,
  RefValue; the laws in Algebra, ChainFacts, Finite, Bridge. The idealized kernel is the kernel's own text read at the
  extended reals (no operation was rewritten), so that conjunct is trivial.
-/
import proofs.«114628_j37194416783909_1_alg».proof.Defs
import proofs.«114628_j37194416783909_1_alg».proof.Proof.Gen.Kernel
import proofs.«114628_j37194416783909_1_alg».proof.Proof.Gen.Kernel.Skeleton
import proofs.«114628_j37194416783909_1_alg».proof.Proof.Gen.Kernel.Launch
import proofs.«114628_j37194416783909_1_alg».proof.Proof.Gen.Kernel.Points
import proofs.«114628_j37194416783909_1_alg».proof.Proof.Gen.Kernel.Frame
import proofs.«114628_j37194416783909_1_alg».proof.Proof.Gen.KernelIdeal
import proofs.«114628_j37194416783909_1_alg».proof.Proof.Gen.KernelIdeal.Skeleton
import proofs.«114628_j37194416783909_1_alg».proof.Proof.Gen.KernelIdeal.Launch
import proofs.«114628_j37194416783909_1_alg».proof.Proof.Gen.KernelIdeal.Points
import proofs.«114628_j37194416783909_1_alg».proof.Proof.Gen.KernelIdeal.Frame
import proofs.«114628_j37194416783909_1_alg».proof.Proof.Gen.ReferenceIdeal
import proofs.«114628_j37194416783909_1_alg».proof.Proof.Gen.Pre_finite_inputs
import Idealize.ShloMosaic.Adequacy
import Idealize.ShloMosaic.Init
import proofs.«114628_j37194416783909_1_alg».proof.Proof.KerValue
import proofs.«114628_j37194416783909_1_alg».proof.Proof.RefValue
import proofs.«114628_j37194416783909_1_alg».proof.Proof.Bridge

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.Sage.RefValue.run m ρ)

theorem preserves : Cert.preserves_Kernel_KernelIdeal := trivial

/-- Both programs end, the kernel's result array at `kerNet` of its arguments and the reference's at `refNet` of
    arguments that agree with them; under the precondition the two networks are one function. -/
theorem algebraic : Cert.algebraic_KernelIdeal_ReferenceIdeal := by
  intro m ρ m' ρ' hpre hagree
  refine ⟨_, Cert.Sage.kernel_run m ρ, ?_⟩
  refine (θ_run Cert.ReferenceIdeal.defs _ _).mono (fun _ h c => ⟨(h c).1.trans ?_, (h c).2⟩)
    (Cert.Sage.RefValue.run m' ρ')
  obtain ⟨a0, a1, a2, a3, a4, a5, a6, a7⟩ := hagree c
  rw [a0, a1, a2, a3, a4, a5, a6, a7]
  exact Cert.Sage.nets_eq _ _ _ _ _ _ _ _ (hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
